-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S8x2048x2048 : Shape := ⟨3, ![8, 2048, 2048]⟩
abbrev S128x256 : Shape := ⟨2, ![128, 256]⟩
abbrev S128 : Shape := ⟨1, ![128]⟩
abbrev S256x128 : Shape := ⟨2, ![256, 128]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S128 .f32) (main_arg8 : FVec F S256x128 .f32) (main_arg9 : FVec F S256 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S128x256 .f32) (main_arg5 : FVec F S128 .f32) (main_arg6 : FVec F S128x256 .f32) (main_arg7 : FVec F S128 .f32) (main_arg8 : FVec F S256x128 .f32) (main_arg9 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x2048x256 .f32) (main_arg1 : FVec F S8x2048x2048 .f32) (main_arg2 : FVec F S128x256 .f32) (main_arg3 : FVec F S128 .f32) (main_arg4 : FVec F S128x256 .f32) (main_arg5 : FVec F S128 .f32) (main_arg6 : FVec F S128x256 .f32) (main_arg7 : FVec F S128 .f32) (main_arg8 : FVec F S256x128 .f32) (main_arg9 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S8x2048x256 : Shape := ⟨3, ![8, 2048, 256]⟩
abbrev S8x2048x2048 : Shape := ⟨3, ![8, 2048, 2048]⟩
abbrev S128x256 : Shape := ⟨2, ![128, 256]⟩
abbrev S128 : Shape := ⟨1, ![128]⟩
abbrev S256x128 : Shape := ⟨2, ![256, 128]⟩
abbrev S256 : Shape := ⟨1, ![256]⟩
abbrev S256x256 : Shape := ⟨2, ![256, 256]⟩
abbrev S1x256 : Shape := ⟨2, ![1, 256]⟩
abbrev S1x128 : Shape := ⟨2, ![1, 128]⟩
abbrev S1x2048x256 : Shape := ⟨3, ![1, 2048, 256]⟩
abbrev S2048x256 : Shape := ⟨2, ![2048, 256]⟩
abbrev S2048x128 : Shape := ⟨2, ![2048, 128]⟩
abbrev S1x2048x128 : Shape := ⟨3, ![1, 2048, 128]⟩
abbrev S1x512x256 : Shape := ⟨3, ![1, 512, 256]⟩
abbrev S1x512x2048 : Shape := ⟨3, ![1, 512, 2048]⟩
abbrev S512x256 : Shape := ⟨2, ![512, 256]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 24
  | .vmem => 18
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S128x256, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S256x128, .f32⟩
  | .hbm, ⟨9, _⟩ => ⟨S256, .f32⟩
  | .hbm, ⟨10, _⟩ => ⟨S256x128, .f32⟩
  | .hbm, ⟨11, _⟩ => ⟨S256x128, .bf16⟩
  | .hbm, ⟨12, _⟩ => ⟨S256x128, .f32⟩
  | .hbm, ⟨13, _⟩ => ⟨S256x128, .f32⟩
  | .hbm, ⟨14, _⟩ => ⟨S256x256, .f32⟩
  | .hbm, ⟨15, _⟩ => ⟨S256x256, .bf16⟩
  | .hbm, ⟨16, _⟩ => ⟨S256, .f32⟩
  | .hbm, ⟨17, _⟩ => ⟨S1x256, .f32⟩
  | .hbm, ⟨18, _⟩ => ⟨S1x128, .f32⟩
  | .hbm, ⟨19, _⟩ => ⟨S128x256, .f32⟩
  | .hbm, ⟨20, _⟩ => ⟨S128x256, .bf16⟩
  | .hbm, ⟨21, _⟩ => ⟨S1x256, .f32⟩
  | .hbm, ⟨22, _⟩ => ⟨S8x2048x256, .bf16⟩
  | .hbm, ⟨23, _⟩ => ⟨S8x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S256x256, .bf16⟩
  | .local _ .vmem, ⟨3, _⟩ => ⟨S1x256, .f32⟩
  | .local _ .vmem, ⟨4, _⟩ => ⟨S1x2048x256, .bf16⟩
  | .local _ .vmem, ⟨5, _⟩ => ⟨S1x2048x256, .bf16⟩
  | .local _ .vmem, ⟨6, _⟩ => ⟨S1x512x256, .f32⟩
  | .local _ .vmem, ⟨7, _⟩ => ⟨S1x512x256, .f32⟩
  | .local _ .vmem, ⟨8, _⟩ => ⟨S1x512x2048, .f32⟩
  | .local _ .vmem, ⟨9, _⟩ => ⟨S1x512x2048, .f32⟩
  | .local _ .vmem, ⟨10, _⟩ => ⟨S256x128, .bf16⟩
  | .local _ .vmem, ⟨11, _⟩ => ⟨S1x128, .f32⟩
  | .local _ .vmem, ⟨12, _⟩ => ⟨S1x2048x256, .bf16⟩
  | .local _ .vmem, ⟨13, _⟩ => ⟨S1x2048x256, .bf16⟩
  | .local _ .vmem, ⟨14, _⟩ => ⟨S128x256, .bf16⟩
  | .local _ .vmem, ⟨15, _⟩ => ⟨S1x256, .f32⟩
  | .local _ .vmem, ⟨16, _⟩ => ⟨S1x512x256, .f32⟩
  | .local _ .vmem, ⟨17, _⟩ => ⟨S1x512x256, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S128x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x512x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  transposes_S128x256_S256x128_1_0 : S128x256.Transposes [1, 0] S256x128
  bitsLt_bf16_f32 : FTy.bits .bf16 < FTy.bits .f32
  concatenates_S256x128_S256x128_S256x256_d1 : Shape.Concatenates [S256x128, S256x128] S256x256 1
  concatenates_S128_S128_S256_d0 : Shape.Concatenates [S128, S128] S256 0
  shapeCasts_S256_S1x256 : S256.ShapeCasts S1x256
  shapeCasts_S128_S1x128 : S128.ShapeCasts S1x128
  transposes_S256x128_S128x256_1_0 : S256x128.Transposes [1, 0] S128x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  slices_S2048x256_o0_0_S2048x128 : S2048x256.Slices ![0, 0] S2048x128
  slices_S2048x256_o0_128_S2048x128 : S2048x256.Slices ![0, 128] S2048x128
  reduces_S2048x128_S128 : S2048x128.Reduces [0] S128
  broadcasts_S1x128_S2048x128 : S1x128.Broadcasts S2048x128
  inb_S1x2048x256_S1x2048x128_0_0_0 : ∀ a, (![0, 0, 0] : Fin 3 → Nat) a + S1x2048x128.size a ≤ S1x2048x256.size a
  h_S1x2048x128 : 0 < S1x2048x128.numel
  shapeCasts_S1x2048x128_S2048x128 : S1x2048x128.ShapeCasts S2048x128
  shapeCasts_S2048x128_S1x2048x128 : S2048x128.ShapeCasts S1x2048x128
  packedbf16_S1x2048x256_S1x2048x128_0_0_0 : (Rect.unit (s := S1x2048x256) ![0, 0, 0] S1x2048x128.size inb_S1x2048x256_S1x2048x128_0_0_0).PackedRows (EltTy.packing .bf16)
  inb_S1x2048x256_S1x2048x128_0_0_128 : ∀ a, (![0, 0, 128] : Fin 3 → Nat) a + S1x2048x128.size a ≤ S1x2048x256.size a
  packedbf16_S1x2048x256_S1x2048x128_0_0_128 : (Rect.unit (s := S1x2048x256) ![0, 0, 128] S1x2048x128.size inb_S1x2048x256_S1x2048x128_0_0_128).PackedRows (EltTy.packing .bf16)
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  slices_S512x256_o0_0_S512x128 : S512x256.Slices ![0, 0] S512x128
  slices_S512x256_o0_128_S512x128 : S512x256.Slices ![0, 128] S512x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  broadcasts_S1x256_S512x256 : S1x256.Broadcasts S512x256
  shapeCasts_S512x256_S1x512x256 : S512x256.ShapeCasts S1x512x256
  dot_S2048x256_S256x256_S2048x256_1_0_0_1_n_n_wf : DotDims.WF S2048x256 S256x256 S2048x256 [1] [0] [0] [1] [] []
  dot_S512x256_S256x128_S512x128_1_0_0_1_n_n_wf : DotDims.WF S512x256 S256x128 S512x128 [1] [0] [0] [1] [] []
  dot_S512x2048_S2048x256_S512x256_1_0_0_1_n_n_wf : DotDims.WF S512x2048 S2048x256 S512x256 [1] [0] [0] [1] [] []
  dot_S512x128_S128x256_S512x256_1_0_0_1_n_n_wf : DotDims.WF S512x128 S128x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S8x2048x256.size a
  hwx0_3 : ∀ i : grid0.Coords, EltTy.bits .bf16 = 32 ∨ (Rect.block (s := S8x2048x256) S1x2048x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x256.size a ≤ S8x2048x256.size a
  hwx1_0 : ∀ i : grid1.Coords, EltTy.bits .f32 = 32 ∨ (Rect.block (s := S8x2048x256) S1x512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x2048.size a ≤ S8x2048x2048.size a
  hwx1_1 : ∀ i : grid1.Coords, EltTy.bits .f32 = 32 ∨ (Rect.block (s := S8x2048x2048) S1x512x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x256.size a ≤ S8x2048x256.size a
  hwx1_4 : ∀ i : grid1.Coords, EltTy.bits .bf16 = 32 ∨ (Rect.block (s := S8x2048x256) S1x2048x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .bf16 = 32 ∨ (Rect.block (s := S128x256) S128x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512x256.size a ≤ S8x2048x256.size a
  hwx1_7 : ∀ i : grid1.Coords, EltTy.bits .f32 = 32 ∨ (Rect.block (s := S8x2048x256) S1x512x256.size (cc1_transform_7 i) (hinb1_7 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x2048x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v13) S1x512x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8x2048x256 : Shape := ⟨3, ![8, 2048, 256]⟩
abbrev S8x2048x2048 : Shape := ⟨3, ![8, 2048, 2048]⟩
abbrev S128x256 : Shape := ⟨2, ![128, 256]⟩
abbrev S128 : Shape := ⟨1, ![128]⟩
abbrev S256x128 : Shape := ⟨2, ![256, 128]⟩
abbrev S256 : Shape := ⟨1, ![256]⟩
abbrev S8x2048x128 : Shape := ⟨3, ![8, 2048, 128]⟩
abbrev S1x1x128 : Shape := ⟨3, ![1, 1, 128]⟩
abbrev S_ : Shape := ⟨0, ![]⟩
abbrev S8x2048 : Shape := ⟨2, ![8, 2048]⟩
abbrev S8x2048x1 : Shape := ⟨3, ![8, 2048, 1]⟩
abbrev S8x128 : Shape := ⟨2, ![8, 128]⟩
abbrev S8x1x128 : Shape := ⟨3, ![8, 1, 128]⟩
abbrev S1x1x256 : Shape := ⟨3, ![1, 1, 256]⟩

abbrev nBuf : Space → Nat
  | .hbm => 69
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S128x256, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S256x128, .f32⟩
  | .hbm, ⟨9, _⟩ => ⟨S256, .f32⟩
  | .hbm, ⟨10, _⟩ => ⟨S8x2048x128, .f32⟩
  | .hbm, ⟨11, _⟩ => ⟨S1x1x128, .f32⟩
  | .hbm, ⟨12, _⟩ => ⟨S8x2048x128, .f32⟩
  | .hbm, ⟨13, _⟩ => ⟨S8x2048x128, .f32⟩
  | .hbm, ⟨14, _⟩ => ⟨S8x2048x128, .f32⟩
  | .hbm, ⟨15, _⟩ => ⟨S1x1x128, .f32⟩
  | .hbm, ⟨16, _⟩ => ⟨S8x2048x128, .f32⟩
  | .hbm, ⟨17, _⟩ => ⟨S8x2048x128, .f32⟩
  | .hbm, ⟨18, _⟩ => ⟨S8x2048x128, .f32⟩
  | .hbm, ⟨19, _⟩ => ⟨S1x1x128, .f32⟩
  | .hbm, ⟨20, _⟩ => ⟨S8x2048x128, .f32⟩
  | .hbm, ⟨21, _⟩ => ⟨S8x2048x128, .f32⟩
  | .hbm, ⟨22, _⟩ => ⟨S8x2048x128, .f32⟩
  | .hbm, ⟨23, _⟩ => ⟨S8x2048x128, .f32⟩
  | .hbm, ⟨24, _⟩ => ⟨S_, .f32⟩
  | .hbm, ⟨25, _⟩ => ⟨S8x2048x128, .f32⟩
  | .hbm, ⟨26, _⟩ => ⟨S8x2048x128, .f32⟩
  | .hbm, ⟨27, _⟩ => ⟨S_, .f32⟩
  | .hbm, ⟨28, _⟩ => ⟨S8x2048x128, .f32⟩
  | .hbm, ⟨29, _⟩ => ⟨S8x2048x128, .f32⟩
  | .hbm, ⟨30, _⟩ => ⟨S_, .f32⟩
  | .hbm, ⟨31, _⟩ => ⟨S8x2048, .f32⟩
  | .hbm, ⟨32, _⟩ => ⟨S_, .f32⟩
  | .hbm, ⟨33, _⟩ => ⟨S8x2048, .f32⟩
  | .hbm, ⟨34, _⟩ => ⟨S8x2048, .f32⟩
  | .hbm, ⟨35, _⟩ => ⟨S8x2048x1, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S8x2048x2048, .f32⟩
  | .hbm, ⟨43, _⟩ => ⟨S8x2048x2048, .f32⟩
  | .hbm, ⟨44, _⟩ => ⟨S_, .f32⟩
  | .hbm, ⟨45, _⟩ => ⟨S8x128, .f32⟩
  | .hbm, ⟨46, _⟩ => ⟨S_, .f32⟩
  | .hbm, ⟨47, _⟩ => ⟨S8x128, .f32⟩
  | .hbm, ⟨48, _⟩ => ⟨S8x128, .f32⟩
  | .hbm, ⟨49, _⟩ => ⟨S8x1x128, .f32⟩
  | .hbm, ⟨50, _⟩ => ⟨S8x2048x128, .f32⟩
  | .hbm, ⟨51, _⟩ => ⟨S8x2048x128, .f32⟩
  | .hbm, ⟨52, _⟩ => ⟨S8x2048x128, .f32⟩
  | .hbm, ⟨53, _⟩ => ⟨S_, .f32⟩
  | .hbm, ⟨54, _⟩ => ⟨S8x128, .f32⟩
  | .hbm, ⟨55, _⟩ => ⟨S8x1x128, .f32⟩
  | .hbm, ⟨56, _⟩ => ⟨S8x2048x128, .f32⟩
  | .hbm, ⟨57, _⟩ => ⟨S8x2048x128, .f32⟩
  | .hbm, ⟨58, _⟩ => ⟨S8x2048x2048, .f32⟩
  | .hbm, ⟨59, _⟩ => ⟨S8x2048x128, .f32⟩
  | .hbm, ⟨60, _⟩ => ⟨S8x2048x128, .f32⟩
  | .hbm, ⟨61, _⟩ => ⟨S8x2048x128, .f32⟩
  | .hbm, ⟨62, _⟩ => ⟨S8x2048x128, .f32⟩
  | .hbm, ⟨63, _⟩ => ⟨S8x2048x128, .f32⟩
  | .hbm, ⟨64, _⟩ => ⟨S8x2048x128, .f32⟩
  | .hbm, ⟨65, _⟩ => ⟨S8x2048x256, .f32⟩
  | .hbm, ⟨66, _⟩ => ⟨S1x1x256, .f32⟩
  | .hbm, ⟨67, _⟩ => ⟨S8x2048x256, .f32⟩
  | .hbm, ⟨68, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S8x2048x128_0_1_2 : S1x1x128.BroadcastsInDim S8x2048x128 (![0, 1, 2] : Fin 3 → Fin S8x2048x128.rank)
  bcast_S_S8x2048x128 : S_.BroadcastsInDim S8x2048x128 (![] : Fin 0 → Fin S8x2048x128.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  reducesTo_S8x2048x128_S8x128_d1 : S8x2048x128.ReducesTo [1] S8x128
  bcast_S_S8x128 : S_.BroadcastsInDim S8x128 (![] : Fin 0 → Fin S8x128.rank)
  bcast_S8x128_S8x1x128_0_2 : S8x128.BroadcastsInDim S8x1x128 (![0, 2] : Fin 2 → Fin S8x1x128.rank)
  bcast_S8x1x128_S8x2048x128_0_1_2 : S8x1x128.BroadcastsInDim S8x2048x128 (![0, 1, 2] : Fin 3 → Fin S8x2048x128.rank)
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  dot_S8x2048x256_S128x256_S8x2048x128_2_1_01_0_n_n_wf : DotDims.WF S8x2048x256 S128x256 S8x2048x128 [2] [1] [0, 1] [0] [] []
  dot_S8x2048x2048_S8x2048x128_S8x2048x128_2_1_1_2_0_0_wf : DotDims.WF S8x2048x2048 S8x2048x128 S8x2048x128 [2] [1] [1] [2] [0] [0]
  dot_S8x2048x128_S256x128_S8x2048x256_2_1_01_0_n_n_wf : DotDims.WF S8x2048x128 S256x128 S8x2048x256 [2] [1] [0, 1] [0] [] []

variable [Facts₀]

def dot_S8x2048x256_S128x256_S8x2048x128_2_1_01_0_n_n : DotDims S8x2048x256 S128x256 S8x2048x128 where
  lhsContracting := [2]
  rhsContracting := [1]
  lhsNonContracting := [0, 1]
  rhsNonContracting := [0]
  lhsBatch := []
  rhsBatch := []
  wf := dot_S8x2048x256_S128x256_S8x2048x128_2_1_01_0_n_n_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf
def dot_S8x2048x128_S256x128_S8x2048x256_2_1_01_0_n_n : DotDims S8x2048x128 S256x128 S8x2048x256 where
  lhsContracting := [2]
  rhsContracting := [1]
  lhsNonContracting := [0, 1]
  rhsNonContracting := [0]
  lhsBatch := []
  rhsBatch := []
  wf := dot_S8x2048x128_S256x128_S8x2048x256_2_1_01_0_n_n_wf

class Facts : Prop extends Facts₀ where

variable [Facts]
-- ==== Proof.KernelRun.lean ====
/-
  The idealized kernel program's run, with its RESULT read.  The program is a stretch of host operations (the
  weights transposed, concatenated and reshaped), then two pipelined regions: the first writes, batch by batch,
  the array [exp(softmax_t K) | exp(softmax_t K) · V]; the second reads it back and writes the output.  Every
  weakly fair execution ends with each unscoped buffer at the last boundary's contents, so the result array is
  what the second region's write-backs leave, and the ten arguments are as launched.
-/
import proofs.«145227_j48455821034241_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the contents of the last
    segment boundary, and the ten arguments end as launched. -/
theorem run_result : θ_run defs (onTc (τ := τ) (main (F := F))) ⟨m, fun _ => 0, ρ⟩ (fun r => ∀ c : Dev nD,
      r.2.mem ((c.tc : Thread nD τ).loc main_v13) = W3 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v13 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c)⟩)

end Cert.KernelIdeal.RunValue

end
-- ==== Proof.RegionKV.lean ====
/-
  The first region, read as an array.  Its grid has one point per batch b; point b reads batch b of x
  ([1,2048,256]), the whole concatenated weight matrix [256,256] and the whole concatenated bias [1,256], and writes
  batch b of the output [8,2048,256].  So the output array after the region is ONE function of the three arrays the
  region finds: entry (b, s, j) is the body's block function of batch b of x, read at (0, s, j).  The blocks tile the
  array (batch b is covered by point b).
-/
import proofs.«145227_j48455821034241_2_alg».proof.Proof.Gen.KernelIdeal.Frame
import Idealize.ShloMosaic.Lib.Pipeline.Value
import Idealize.ShloMosaic.Lib.ValueIdx

set_option maxRecDepth 16384

noncomputable section

namespace Cert.KernelIdeal.RegionKV

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the body's block function is never opened here: only its arguments are compared
attribute [local irreducible] out0_3

variable {F : FTy → Type} [FloatOps F]
variable (V : (c : Dev nD) → (b : Ref sig .tc) → Buf (Elt F) ((c : Thread nD τ).loc b))

/-- Batch `b` of a [8,2048,256] array as a [1,2048,256] block. -/
def batchOf (x : S8x2048x256.Idx → Elt F .f32) (b : Fin 8) : Vec F S1x2048x256 .f32 :=
  fun y => x (ix3 b (y 1) (y 2))

/-- The array the region leaves: entry (b, s, j) is the body's block function of batch b, at (0, s, j). -/
def kvArr (x : S8x2048x256.Idx → Elt F .f32) (w : Vec F S256x256 .bf16) (bias : Vec F S1x256 .f32) :
    S8x2048x256.Idx → Elt F .bf16 :=
  fun i => out0_3 (batchOf x (i 0)) w bias (ix3 (0 : Fin 1) (i 1) (i 2))

/-- The printed index maps over the grid: x and the output move with the batch, the weights and the bias stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Every batch is some point's. -/
theorem idx_onto : ∀ q0 : Fin 8, ∃ t : Fin cfg0.N, win0_3.index t = ![q0.val, 0, 0] :=
  (by decide +kernel : ∀ q0 : Fin 8, ∃ t : Fin grid0.N, win0_3.index t = ![q0.val, 0, 0])

/-- What point `t` writes back is block `t` of the array function. -/
theorem flushed_eq (c : Dev nD) (t : Fin cfg0.N) :
    (dat0 V c).flushed 3 t
      = ((cfg0.win 3).blk t).view.read (Elt F) (kvArr (V c main_arg0) (V c main_v5) (V c main_v7)) := by
  obtain ⟨e00, e01, e02, e10, e11, e20, e21, e30, e31, e32⟩ := idx_facts t
  funext j
  show (dat0 V c).after 3 t ((cfg0.win 3).xinj (grid0.coords t) j)
    = kvArr (V c main_arg0) (V c main_v5) (V c main_v7) (((cfg0.win 3).blk t).view.emb j)
  rw [after0_3]
  unfold kvArr
  have hj0 : (j 0).val < 1 := (j 0).isLt
  have h0 : iblk0 V c 0 t = batchOf (V c main_arg0) ((((cfg0.win 3).blk t).view.emb j) 0) := by
    funext y
    have hy0 : (y 0).val < 1 := (y 0).isLt
    show V c main_arg0 (((cfg0.win 0).blk t).view.emb y) = V c main_arg0 _
    refine congrArg (V c main_arg0) (funext fun a => Fin.ext ?_)
    match a with
    | ⟨0, _⟩ =>
      show win0_0.index t (0 : Fin 3) * 1 + 1 * (y 0).val = win0_3.index t (0 : Fin 3) * 1 + 1 * (j 0).val
      omega
    | ⟨1, _⟩ => show win0_0.index t (1 : Fin 3) * 2048 + 1 * (y 1).val = (y 1).val; omega
    | ⟨2, _⟩ => show win0_0.index t (2 : Fin 3) * 256 + 1 * (y 2).val = (y 2).val; omega
  have h1 : iblk0 V c 1 t = V c main_v5 := by
    funext y
    show V c main_v5 (((cfg0.win 1).blk t).view.emb y) = V c main_v5 y
    refine congrArg (V c main_v5) (funext fun a => Fin.ext ?_)
    match a with
    | ⟨0, _⟩ => show win0_1.index t (0 : Fin 2) * 256 + 1 * (y 0).val = (y 0).val; omega
    | ⟨1, _⟩ => show win0_1.index t (1 : Fin 2) * 256 + 1 * (y 1).val = (y 1).val; omega
  have h2 : iblk0 V c 2 t = V c main_v7 := by
    funext y
    show V c main_v7 (((cfg0.win 2).blk t).view.emb y) = V c main_v7 y
    refine congrArg (V c main_v7) (funext fun a => Fin.ext ?_)
    match a with
    | ⟨0, _⟩ => show win0_2.index t (0 : Fin 2) * 1 + 1 * (y 0).val = (y 0).val; omega
    | ⟨1, _⟩ => show win0_2.index t (1 : Fin 2) * 256 + 1 * (y 1).val = (y 1).val; omega
  rw [h0, h1, h2]
  refine congrArg (out0_3 _ _ _) (funext fun a => Fin.ext ?_)
  match a with
  | ⟨0, _⟩ => show (j 0).val = 0; omega
  | ⟨1, _⟩ => show (j 1).val = win0_3.index t (1 : Fin 3) * 2048 + 1 * (j 1).val; omega
  | ⟨2, _⟩ => show (j 2).val = win0_3.index t (2 : Fin 3) * 256 + 1 * (j 2).val; omega

/-- An index of the array is in point `t`'s block iff each coordinate is in the block's range on its axis. -/
theorem mem_blk (t : Fin cfg0.N) (i : S8x2048x256.Idx) :
    i ∈ ((cfg0.win 3).blk t).view.set ↔ ∀ a : Fin 3, win0_3.index t a * S1x2048x256.size a ≤ (i a).val
      ∧ (i a).val < win0_3.index t a * S1x2048x256.size a + S1x2048x256.size a := by
  show i ∈ ((View.whole main_v12).slice (win0_3.rect t)).set ↔ _
  rw [View.set_slice_whole, Rect.mem_set_unit]
  exact Iff.rfl

/-- Every index of the output array is in some point's block: batch `b` in point `b`'s. -/
theorem cover (i : S8x2048x256.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 256 := (i 2).isLt
  obtain ⟨t, ht⟩ := idx_onto ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 2048 ≤ (i 1).val ∧ (i 1).val < win0_3.index t (1 : Fin 3) * 2048 + 2048
    omega
  | ⟨2, _⟩ =>
    show win0_3.index t (2 : Fin 3) * 256 ≤ (i 2).val ∧ (i 2).val < win0_3.index t (2 : Fin 3) * 256 + 256
    omega

/-- The output array after the region. -/
theorem arr_eq (c : Dev nD) :
    (dat0 V c).arrAt 3 cfg0.N = kvArr (V c main_arg0) (V c main_v5) (V c main_v7) :=
  (dat0 V c).arrAt_eq_of_cover 3 _ (fun t _ => flushed_eq V c t) cover

end Cert.KernelIdeal.RegionKV

end
-- ==== Proof.RegionAft.lean ====
/-
  The second region, read as an array.  Its grid is (batch b, row block q) with four blocks of 512 rows per batch;
  point (b, q) reads rows [512q, 512q + 512) of batch b of x and of adapt_bias, the whole of the four small
  operands, and batch b of the first region's array, and writes rows [512q, 512q + 512) of batch b of the output.
  So the output array after the region is ONE function of the seven arrays the region finds: entry (b, r, d) is the
  body's block function of those blocks, with q = r / 512, read at (0, r mod 512, d).  The blocks tile the array.
-/
import proofs.«145227_j48455821034241_2_alg».proof.Proof.Gen.KernelIdeal.Frame
import Idealize.ShloMosaic.Lib.Pipeline.Value
import Idealize.ShloMosaic.Lib.ValueIdx

set_option maxRecDepth 16384

noncomputable section

namespace Cert.KernelIdeal.RegionAft

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the body's block function is never opened here: only its arguments are compared
attribute [local irreducible] out1_7

variable {F : FTy → Type} [FloatOps F]
variable (V : (c : Dev nD) → (b : Ref sig .tc) → Buf (Elt F) ((c : Thread nD τ).loc b))

/-- The row block of a row, and the row inside its block. -/
def qOf (r : Fin 2048) : Fin 4 := ⟨r.val / 512, by have := r.isLt; omega⟩
def rOf (r : Fin 2048) : Fin 512 := ⟨r.val % 512, by omega⟩

/-- Rows [512q, 512q + 512) of batch `b` of a [8,2048,256] array as a [1,512,256] block. -/
def rows256 (x : S8x2048x256.Idx → Elt F .f32) (b : Fin 8) (q : Fin 4) : Vec F S1x512x256 .f32 :=
  fun y => x (ix3 b (⟨q.val * 512 + (y 1).val, by
    have h1 : (y 1).val < 512 := (y 1).isLt
    have := q.isLt; omega⟩ : Fin 2048) (y 2))

/-- The same of a [8,2048,2048] array as a [1,512,2048] block. -/
def rows2048 (x : S8x2048x2048.Idx → Elt F .f32) (b : Fin 8) (q : Fin 4) : Vec F S1x512x2048 .f32 :=
  fun y => x (ix3 b (⟨q.val * 512 + (y 1).val, by
    have h1 : (y 1).val < 512 := (y 1).isLt
    have := q.isLt; omega⟩ : Fin 2048) (y 2))

/-- Batch `b` of the first region's [8,2048,256] array as a [1,2048,256] block. -/
def batchOfB (x : S8x2048x256.Idx → Elt F .bf16) (b : Fin 8) : Vec F S1x2048x256 .bf16 :=
  fun y => x (ix3 b (y 1) (y 2))

/-- The array the region leaves: entry (b, r, d) is the body's block function of the blocks at (b, r / 512), read at
    (0, r mod 512, d). -/
def aftArr (x : S8x2048x256.Idx → Elt F .f32) (ab : S8x2048x2048.Idx → Elt F .f32) (wq : Vec F S256x128 .bf16)
    (bq : Vec F S1x128 .f32) (ek : S8x2048x256.Idx → Elt F .bf16) (wp : Vec F S128x256 .bf16) (bp : Vec F S1x256 .f32) :
    S8x2048x256.Idx → Elt F .f32 :=
  fun i => out1_7 (rows256 x (i 0) (qOf (i 1))) (rows2048 ab (i 0) (qOf (i 1))) wq bq (batchOfB ek (i 0)) wp bp
    (ix3 (0 : Fin 1) (rOf (i 1)) (i 2))

/-- The printed index maps over the grid: x, adapt_bias and the output move with (batch, row block); the first
    region's array moves with the batch; the four small operands stay. -/
theorem idx_facts : ∀ t : Fin cfg1.N,
    win1_0.index t (0 : Fin 3) = win1_7.index t (0 : Fin 3) ∧ win1_0.index t (1 : Fin 3) = win1_7.index t (1 : Fin 3)
    ∧ win1_0.index t (2 : Fin 3) = 0
    ∧ win1_1.index t (0 : Fin 3) = win1_7.index t (0 : Fin 3) ∧ win1_1.index t (1 : Fin 3) = win1_7.index t (1 : Fin 3)
    ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = win1_7.index t (0 : Fin 3) ∧ win1_4.index t (1 : Fin 3) = 0
    ∧ win1_4.index t (2 : Fin 3) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 3) ≤ 7 ∧ win1_7.index t (1 : Fin 3) ≤ 3 ∧ win1_7.index t (2 : Fin 3) = 0 :=
  (by decide +kernel : ∀ t : Fin grid1.N, _)

/-- Every (batch, row block) is some point's. -/
theorem idx_onto : ∀ (q0 : Fin 8) (q1 : Fin 4), ∃ t : Fin cfg1.N, win1_7.index t = ![q0.val, q1.val, 0] :=
  (by decide +kernel : ∀ (q0 : Fin 8) (q1 : Fin 4), ∃ t : Fin grid1.N, win1_7.index t = ![q0.val, q1.val, 0])

/-- What point `t` writes back is block `t` of the array function. -/
theorem flushed_eq (c : Dev nD) (t : Fin cfg1.N) :
    (dat1 V c).flushed 7 t
      = ((cfg1.win 7).blk t).view.read (Elt F) (aftArr (V c main_arg0) (V c main_arg1) (V c main_v1) (V c main_v8)
          (V c main_v12) (V c main_v10) (V c main_v11)) := by
  obtain ⟨e00, e01, e02, e10, e11, e12, e20, e21, e30, e31, e40, e41, e42, e50, e51, e60, e61, b70, b71, e72⟩ :=
    idx_facts t
  funext j
  show (dat1 V c).after 7 t ((cfg1.win 7).xinj (grid1.coords t) j)
    = aftArr (V c main_arg0) (V c main_arg1) (V c main_v1) (V c main_v8) (V c main_v12) (V c main_v10) (V c main_v11)
        (((cfg1.win 7).blk t).view.emb j)
  rw [after1_7]
  unfold aftArr
  have hj0 : (j 0).val < 1 := (j 0).isLt
  have hj1 : (j 1).val < 512 := (j 1).isLt
  have h0 : iblk1 V c 0 t = rows256 (V c main_arg0) ((((cfg1.win 7).blk t).view.emb j) 0)
      (qOf ((((cfg1.win 7).blk t).view.emb j) 1)) := by
    funext y
    have hy0 : (y 0).val < 1 := (y 0).isLt
    have hy1 : (y 1).val < 512 := (y 1).isLt
    show V c main_arg0 (((cfg1.win 0).blk t).view.emb y) = V c main_arg0 _
    refine congrArg (V c main_arg0) (funext fun a => Fin.ext ?_)
    match a with
    | ⟨0, _⟩ =>
      show win1_0.index t (0 : Fin 3) * 1 + 1 * (y 0).val = win1_7.index t (0 : Fin 3) * 1 + 1 * (j 0).val
      omega
    | ⟨1, _⟩ =>
      show win1_0.index t (1 : Fin 3) * 512 + 1 * (y 1).val
        = (win1_7.index t (1 : Fin 3) * 512 + 1 * (j 1).val) / 512 * 512 + (y 1).val
      omega
    | ⟨2, _⟩ => show win1_0.index t (2 : Fin 3) * 256 + 1 * (y 2).val = (y 2).val; omega
  have h1 : iblk1 V c 1 t = rows2048 (V c main_arg1) ((((cfg1.win 7).blk t).view.emb j) 0)
      (qOf ((((cfg1.win 7).blk t).view.emb j) 1)) := by
    funext y
    have hy0 : (y 0).val < 1 := (y 0).isLt
    have hy1 : (y 1).val < 512 := (y 1).isLt
    show V c main_arg1 (((cfg1.win 1).blk t).view.emb y) = V c main_arg1 _
    refine congrArg (V c main_arg1) (funext fun a => Fin.ext ?_)
    match a with
    | ⟨0, _⟩ =>
      show win1_1.index t (0 : Fin 3) * 1 + 1 * (y 0).val = win1_7.index t (0 : Fin 3) * 1 + 1 * (j 0).val
      omega
    | ⟨1, _⟩ =>
      show win1_1.index t (1 : Fin 3) * 512 + 1 * (y 1).val
        = (win1_7.index t (1 : Fin 3) * 512 + 1 * (j 1).val) / 512 * 512 + (y 1).val
      omega
    | ⟨2, _⟩ => show win1_1.index t (2 : Fin 3) * 2048 + 1 * (y 2).val = (y 2).val; omega
  have h2 : iblk1 V c 2 t = V c main_v1 := by
    funext y
    show V c main_v1 (((cfg1.win 2).blk t).view.emb y) = V c main_v1 y
    refine congrArg (V c main_v1) (funext fun a => Fin.ext ?_)
    match a with
    | ⟨0, _⟩ => show win1_2.index t (0 : Fin 2) * 256 + 1 * (y 0).val = (y 0).val; omega
    | ⟨1, _⟩ => show win1_2.index t (1 : Fin 2) * 128 + 1 * (y 1).val = (y 1).val; omega
  have h3 : iblk1 V c 3 t = V c main_v8 := by
    funext y
    show V c main_v8 (((cfg1.win 3).blk t).view.emb y) = V c main_v8 y
    refine congrArg (V c main_v8) (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  have h4 : iblk1 V c 4 t = batchOfB (V c main_v12) ((((cfg1.win 7).blk t).view.emb j) 0) := by
    funext y
    have hy0 : (y 0).val < 1 := (y 0).isLt
    show V c main_v12 (((cfg1.win 4).blk t).view.emb y) = V c main_v12 _
    refine congrArg (V c main_v12) (funext fun a => Fin.ext ?_)
    match a with
    | ⟨0, _⟩ =>
      show win1_4.index t (0 : Fin 3) * 1 + 1 * (y 0).val = win1_7.index t (0 : Fin 3) * 1 + 1 * (j 0).val
      omega
    | ⟨1, _⟩ => show win1_4.index t (1 : Fin 3) * 2048 + 1 * (y 1).val = (y 1).val; omega
    | ⟨2, _⟩ => show win1_4.index t (2 : Fin 3) * 256 + 1 * (y 2).val = (y 2).val; omega
  have h5 : iblk1 V c 5 t = V c main_v10 := by
    funext y
    show V c main_v10 (((cfg1.win 5).blk t).view.emb y) = V c main_v10 y
    refine congrArg (V c main_v10) (funext fun a => Fin.ext ?_)
    match a with
    | ⟨0, _⟩ => show win1_5.index t (0 : Fin 2) * 128 + 1 * (y 0).val = (y 0).val; omega
    | ⟨1, _⟩ => show win1_5.index t (1 : Fin 2) * 256 + 1 * (y 1).val = (y 1).val; omega
  have h6 : iblk1 V c 6 t = V c main_v11 := by
    funext y
    show V c main_v11 (((cfg1.win 6).blk t).view.emb y) = V c main_v11 y
    refine congrArg (V c main_v11) (funext fun a => Fin.ext ?_)
    match a with
    | ⟨0, _⟩ => show win1_6.index t (0 : Fin 2) * 1 + 1 * (y 0).val = (y 0).val; omega
    | ⟨1, _⟩ => show win1_6.index t (1 : Fin 2) * 256 + 1 * (y 1).val = (y 1).val; omega
  rw [h0, h1, h2, h3, h4, h5, h6]
  refine congrArg (out1_7 _ _ _ _ _ _ _) (funext fun a => Fin.ext ?_)
  match a with
  | ⟨0, _⟩ => show (j 0).val = 0; omega
  | ⟨1, _⟩ => show (j 1).val = (win1_7.index t (1 : Fin 3) * 512 + 1 * (j 1).val) % 512; omega
  | ⟨2, _⟩ => show (j 2).val = win1_7.index t (2 : Fin 3) * 256 + 1 * (j 2).val; omega

/-- An index of the array is in point `t`'s block iff each coordinate is in the block's range on its axis. -/
theorem mem_blk (t : Fin cfg1.N) (i : S8x2048x256.Idx) :
    i ∈ ((cfg1.win 7).blk t).view.set ↔ ∀ a : Fin 3, win1_7.index t a * S1x512x256.size a ≤ (i a).val
      ∧ (i a).val < win1_7.index t a * S1x512x256.size a + S1x512x256.size a := by
  show i ∈ ((View.whole main_v13).slice (win1_7.rect t)).set ↔ _
  rw [View.set_slice_whole, Rect.mem_set_unit]
  exact Iff.rfl

/-- Every index of the output array is in some point's block: row `r` of batch `b` in point (b, r / 512)'s. -/
theorem cover (i : S8x2048x256.Idx) :
    ∃ t : Fin cfg1.N, (cfg1.win 7).flush t = true ∧ i ∈ ((cfg1.win 7).blk t).view.set := by
  have hi0 : (i 0).val < 8 := (i 0).isLt
  have hi1 : (i 1).val < 2048 := (i 1).isLt
  have hi2 : (i 2).val < 256 := (i 2).isLt
  obtain ⟨t, ht⟩ := idx_onto ⟨(i 0).val, hi0⟩ ⟨(i 1).val / 512, by omega⟩
  have q0 : win1_7.index t (0 : Fin 3) = (i 0).val := congrFun ht 0
  have q1 : win1_7.index t (1 : Fin 3) = (i 1).val / 512 := congrFun ht 1
  have q2 : win1_7.index t (2 : Fin 3) = 0 := congrFun ht 2
  refine ⟨t, flush1_7 t, ?_⟩
  rw [mem_blk]
  intro a
  match a with
  | ⟨0, _⟩ =>
    show win1_7.index t (0 : Fin 3) * 1 ≤ (i 0).val ∧ (i 0).val < win1_7.index t (0 : Fin 3) * 1 + 1
    omega
  | ⟨1, _⟩ =>
    show win1_7.index t (1 : Fin 3) * 512 ≤ (i 1).val ∧ (i 1).val < win1_7.index t (1 : Fin 3) * 512 + 512
    omega
  | ⟨2, _⟩ =>
    show win1_7.index t (2 : Fin 3) * 256 ≤ (i 2).val ∧ (i 2).val < win1_7.index t (2 : Fin 3) * 256 + 256
    omega

/-- The output array after the region. -/
theorem arr_eq (c : Dev nD) :
    (dat1 V c).arrAt 7 cfg1.N = aftArr (V c main_arg0) (V c main_arg1) (V c main_v1) (V c main_v8) (V c main_v12)
      (V c main_v10) (V c main_v11) :=
  (dat1 V c).arrAt_eq_of_cover 7 _ (fun t _ => flushed_eq V c t) cover

end Cert.KernelIdeal.RegionAft

end
-- ==== Proof.MatmulRead.lean ====
/-
  The kernels' four matrix products, read at an index.  Each is a plain [M,K] × [K,N] product into a zero
  accumulator, so its entry (p, q) is Σ_k lhs(p,k) · rhs(k,q) on the extended reals.
-/
import proofs.«145227_j48455821034241_2_alg».proof.Proof.Gen.KernelIdeal
import Idealize.ShloMosaic.Lib.ValueIdx
import Idealize.ShloMosaic.PureOps.Ideal.Laws

set_option maxRecDepth 16384

noncomputable section

namespace Cert.KernelIdeal.MatmulRead

open Cert.KernelIdeal Cert.KernelIdeal.Gen
open Idealize.ShloMosaic Idealize.ShloMosaic.TcCoe Idealize.ShloMosaic.ValueIdx

theorem dkv_l0 (i : S2048x256.Idx) (q : dot_S2048x256_S256x256_S2048x256_1_0_0_1_n_n.contr.Idx) : (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem dkv_l1 (i : S2048x256.Idx) (q : dot_S2048x256_S256x256_S2048x256_1_0_0_1_n_n.contr.Idx) : (dot_S2048x256_S256x256_S2048x256_1_0_0_1_n_n.lhsIdx i q 1).val = (q ⟨0, by decide⟩).val :=
  dot_S2048x256_S256x256_S2048x256_1_0_0_1_n_n.lhsIdx_val_of_single rfl i q
theorem dkv_r0 (i : S2048x256.Idx) (q : dot_S2048x256_S256x256_S2048x256_1_0_0_1_n_n.contr.Idx) : (dot_S2048x256_S256x256_S2048x256_1_0_0_1_n_n.rhsIdx i q 0).val = (q ⟨0, by decide⟩).val :=
  dot_S2048x256_S256x256_S2048x256_1_0_0_1_n_n.rhsIdx_val_of_single rfl i q
theorem dkv_r1 (i : S2048x256.Idx) (q : dot_S2048x256_S256x256_S2048x256_1_0_0_1_n_n.contr.Idx) : (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl
/-- The matrix product into a zero accumulator, read at (p, q): the sum over the contracted axis. -/
theorem dkv_apply {φ₁ φ₂ : FTy} (lhs : FVec Ideal S2048x256 φ₁) (rhs : FVec Ideal S256x256 φ₂) (p : Fin 2048) (q : Fin 256) :
    matmul dot_S2048x256_S256x256_S2048x256_1_0_0_1_n_n none lhs rhs (constant S2048x256 .f32 0x00000000#32) (ix2 p q)
      = ∑ k : Fin 256, lhs (ix2 p k) * rhs (ix2 k q) := by
  simp only [matmul]
  rw [Ideal.matmul_constant_zero_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx (ix2 p q) ((ValueIdx.contrEquiv1 dot_S2048x256_S256x256_S2048x256_1_0_0_1_n_n 256 rfl rfl).symm k) = ix2 p k := funext fun a => Fin.ext (by
    match a with
    | ⟨0, _⟩ => exact dkv_l0 _ _
    | ⟨1, _⟩ => exact (dkv_l1 _ _).trans hk)
  have er : dot_S2048x256_S256x256_S2048x256_1_0_0_1_n_n.rhsIdx (ix2 p q) ((ValueIdx.contrEquiv1 dot_S2048x256_S256x256_S2048x256_1_0_0_1_n_n 256 rfl rfl).symm k) = ix2 k q := funext fun a => Fin.ext (by
    match a with
    | ⟨0, _⟩ => exact (dkv_r0 _ _).trans hk
    | ⟨1, _⟩ => exact dkv_r1 _ _)
  rw [el, er]

theorem dq_l0 (i : S512x128.Idx) (q : dot_S512x256_S256x128_S512x128_1_0_0_1_n_n.contr.Idx) : (dot_S512x256_S256x128_S512x128_1_0_0_1_n_n.lhsIdx i q 0).val = (i 0).val := by
  unfold DotDims.lhsIdx
  rw [dif_neg (show ¬(0 : Fin S512x256.rank) ∈ dot_S512x256_S256x128_S512x128_1_0_0_1_n_n.lhsBatch by decide), dif_pos (show (0 : Fin S512x256.rank) ∈ dot_S512x256_S256x128_S512x128_1_0_0_1_n_n.lhsNonContracting by decide)]
  rfl
theorem dq_l1 (i : S512x128.Idx) (q : dot_S512x256_S256x128_S512x128_1_0_0_1_n_n.contr.Idx) : (dot_S512x256_S256x128_S512x128_1_0_0_1_n_n.lhsIdx i q 1).val = (q ⟨0, by decide⟩).val :=
  dot_S512x256_S256x128_S512x128_1_0_0_1_n_n.lhsIdx_val_of_single rfl i q
theorem dq_r0 (i : S512x128.Idx) (q : dot_S512x256_S256x128_S512x128_1_0_0_1_n_n.contr.Idx) : (dot_S512x256_S256x128_S512x128_1_0_0_1_n_n.rhsIdx i q 0).val = (q ⟨0, by decide⟩).val :=
  dot_S512x256_S256x128_S512x128_1_0_0_1_n_n.rhsIdx_val_of_single rfl i q
theorem dq_r1 (i : S512x128.Idx) (q : dot_S512x256_S256x128_S512x128_1_0_0_1_n_n.contr.Idx) : (dot_S512x256_S256x128_S512x128_1_0_0_1_n_n.rhsIdx i q 1).val = (i 1).val := by
  unfold DotDims.rhsIdx
  rw [dif_neg (show ¬(1 : Fin S256x128.rank) ∈ dot_S512x256_S256x128_S512x128_1_0_0_1_n_n.rhsBatch by decide), dif_pos (show (1 : Fin S256x128.rank) ∈ dot_S512x256_S256x128_S512x128_1_0_0_1_n_n.rhsNonContracting by decide)]
  rfl
/-- The matrix product into a zero accumulator, read at (p, q): the sum over the contracted axis. -/
theorem dq_apply {φ₁ φ₂ : FTy} (lhs : FVec Ideal S512x256 φ₁) (rhs : FVec Ideal S256x128 φ₂) (p : Fin 512) (q : Fin 128) :
    matmul dot_S512x256_S256x128_S512x128_1_0_0_1_n_n none lhs rhs (constant S512x128 .f32 0x00000000#32) (ix2 p q)
      = ∑ k : Fin 256, lhs (ix2 p k) * rhs (ix2 k q) := by
  simp only [matmul]
  rw [Ideal.matmul_constant_zero_apply, ← Equiv.sum_comp (ValueIdx.contrEquiv1 dot_S512x256_S256x128_S512x128_1_0_0_1_n_n 256 rfl rfl).symm]
  refine Finset.sum_congr rfl fun k _ => ?_
  have hk := ValueIdx.contrEquiv1_symm_val dot_S512x256_S256x128_S512x128_1_0_0_1_n_n 256 rfl rfl k
  have el : dot_S512x256_S256x128_S512x128_1_0_0_1_n_n.lhsIdx (ix2 p q) ((ValueIdx.contrEquiv1 dot_S512x256_S256x128_S512x128_1_0_0_1_n_n 256 rfl rfl).symm k) = ix2 p k := funext fun a => Fin.ext (by
    match a with
    | ⟨0, _⟩ => exact dq_l0 _ _
    | ⟨1, _⟩ => exact (dq_l1 _ _).trans hk)
  have er : dot_S512x256_S256x128_S512x128_1_0_0_1_n_n.rhsIdx (ix2 p q) ((ValueIdx.contrEquiv1 dot_S512x256_S256x128_S512x128_1_0_0_1_n_n 256 rfl rfl).symm k) = ix2 k q := funext fun a => Fin.ext (by
    match a with
    | ⟨0, _⟩ => exact (dq_r0 _ _).trans hk
    | ⟨1, _⟩ => exact dq_r1 _ _)
  rw [el, er]

theorem dc_l0 (i : S512x256.Idx) (q : dot_S512x2048_S2048x256_S512x256_1_0_0_1_n_n.contr.Idx) : (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem dc_l1 (i : S512x256.Idx) (q : dot_S512x2048_S2048x256_S512x256_1_0_0_1_n_n.contr.Idx) : (dot_S512x2048_S2048x256_S512x256_1_0_0_1_n_n.lhsIdx i q 1).val = (q ⟨0, by decide⟩).val :=
  dot_S512x2048_S2048x256_S512x256_1_0_0_1_n_n.lhsIdx_val_of_single rfl i q
theorem dc_r0 (i : S512x256.Idx) (q : dot_S512x2048_S2048x256_S512x256_1_0_0_1_n_n.contr.Idx) : (dot_S512x2048_S2048x256_S512x256_1_0_0_1_n_n.rhsIdx i q 0).val = (q ⟨0, by decide⟩).val :=
  dot_S512x2048_S2048x256_S512x256_1_0_0_1_n_n.rhsIdx_val_of_single rfl i q
theorem dc_r1 (i : S512x256.Idx) (q : dot_S512x2048_S2048x256_S512x256_1_0_0_1_n_n.contr.Idx) : (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl
/-- The matrix product into a zero accumulator, read at (p, q): the sum over the contracted axis. -/
theorem dc_apply {φ₁ φ₂ : FTy} (lhs : FVec Ideal S512x2048 φ₁) (rhs : FVec Ideal S2048x256 φ₂) (p : Fin 512) (q : Fin 256) :
    matmul dot_S512x2048_S2048x256_S512x256_1_0_0_1_n_n none lhs rhs (constant S512x256 .f32 0x00000000#32) (ix2 p q)
      = ∑ k : Fin 2048, lhs (ix2 p k) * rhs (ix2 k q) := by
  simp only [matmul]
  rw [Ideal.matmul_constant_zero_apply, ← Equiv.sum_comp (ValueIdx.contrEquiv1 dot_S512x2048_S2048x256_S512x256_1_0_0_1_n_n 2048 rfl rfl).symm]
  refine Finset.sum_congr rfl fun k _ => ?_
  have hk := ValueIdx.contrEquiv1_symm_val dot_S512x2048_S2048x256_S512x256_1_0_0_1_n_n 2048 rfl rfl k
  have el : dot_S512x2048_S2048x256_S512x256_1_0_0_1_n_n.lhsIdx (ix2 p q) ((ValueIdx.contrEquiv1 dot_S512x2048_S2048x256_S512x256_1_0_0_1_n_n 2048 rfl rfl).symm k) = ix2 p k := funext fun a => Fin.ext (by
    match a with
    | ⟨0, _⟩ => exact dc_l0 _ _
    | ⟨1, _⟩ => exact (dc_l1 _ _).trans hk)
  have er : dot_S512x2048_S2048x256_S512x256_1_0_0_1_n_n.rhsIdx (ix2 p q) ((ValueIdx.contrEquiv1 dot_S512x2048_S2048x256_S512x256_1_0_0_1_n_n 2048 rfl rfl).symm k) = ix2 k q := funext fun a => Fin.ext (by
    match a with
    | ⟨0, _⟩ => exact (dc_r0 _ _).trans hk
    | ⟨1, _⟩ => exact dc_r1 _ _)
  rw [el, er]

theorem dp_l0 (i : S512x256.Idx) (q : dot_S512x128_S128x256_S512x256_1_0_0_1_n_n.contr.Idx) : (dot_S512x128_S128x256_S512x256_1_0_0_1_n_n.lhsIdx i q 0).val = (i 0).val := by
  unfold DotDims.lhsIdx
  rw [dif_neg (show ¬(0 : Fin S512x128.rank) ∈ dot_S512x128_S128x256_S512x256_1_0_0_1_n_n.lhsBatch by decide), dif_pos (show (0 : Fin S512x128.rank) ∈ dot_S512x128_S128x256_S512x256_1_0_0_1_n_n.lhsNonContracting by decide)]
  rfl
theorem dp_l1 (i : S512x256.Idx) (q : dot_S512x128_S128x256_S512x256_1_0_0_1_n_n.contr.Idx) : (dot_S512x128_S128x256_S512x256_1_0_0_1_n_n.lhsIdx i q 1).val = (q ⟨0, by decide⟩).val :=
  dot_S512x128_S128x256_S512x256_1_0_0_1_n_n.lhsIdx_val_of_single rfl i q
theorem dp_r0 (i : S512x256.Idx) (q : dot_S512x128_S128x256_S512x256_1_0_0_1_n_n.contr.Idx) : (dot_S512x128_S128x256_S512x256_1_0_0_1_n_n.rhsIdx i q 0).val = (q ⟨0, by decide⟩).val :=
  dot_S512x128_S128x256_S512x256_1_0_0_1_n_n.rhsIdx_val_of_single rfl i q
theorem dp_r1 (i : S512x256.Idx) (q : dot_S512x128_S128x256_S512x256_1_0_0_1_n_n.contr.Idx) : (dot_S512x128_S128x256_S512x256_1_0_0_1_n_n.rhsIdx i q 1).val = (i 1).val := by
  unfold DotDims.rhsIdx
  rw [dif_neg (show ¬(1 : Fin S128x256.rank) ∈ dot_S512x128_S128x256_S512x256_1_0_0_1_n_n.rhsBatch by decide), dif_pos (show (1 : Fin S128x256.rank) ∈ dot_S512x128_S128x256_S512x256_1_0_0_1_n_n.rhsNonContracting by decide)]
  rfl
/-- The matrix product into a zero accumulator, read at (p, q): the sum over the contracted axis. -/
theorem dp_apply {φ₁ φ₂ : FTy} (lhs : FVec Ideal S512x128 φ₁) (rhs : FVec Ideal S128x256 φ₂) (p : Fin 512) (q : Fin 256) :
    matmul dot_S512x128_S128x256_S512x256_1_0_0_1_n_n none lhs rhs (constant S512x256 .f32 0x00000000#32) (ix2 p q)
      = ∑ k : Fin 128, lhs (ix2 p k) * rhs (ix2 k q) := by
  simp only [matmul]
  rw [Ideal.matmul_constant_zero_apply, ← Equiv.sum_comp (ValueIdx.contrEquiv1 dot_S512x128_S128x256_S512x256_1_0_0_1_n_n 128 rfl rfl).symm]
  refine Finset.sum_congr rfl fun k _ => ?_
  have hk := ValueIdx.contrEquiv1_symm_val dot_S512x128_S128x256_S512x256_1_0_0_1_n_n 128 rfl rfl k
  have el : dot_S512x128_S128x256_S512x256_1_0_0_1_n_n.lhsIdx (ix2 p q) ((ValueIdx.contrEquiv1 dot_S512x128_S128x256_S512x256_1_0_0_1_n_n 128 rfl rfl).symm k) = ix2 p k := funext fun a => Fin.ext (by
    match a with
    | ⟨0, _⟩ => exact dp_l0 _ _
    | ⟨1, _⟩ => exact (dp_l1 _ _).trans hk)
  have er : dot_S512x128_S128x256_S512x256_1_0_0_1_n_n.rhsIdx (ix2 p q) ((ValueIdx.contrEquiv1 dot_S512x128_S128x256_S512x256_1_0_0_1_n_n 128 rfl rfl).symm k) = ix2 k q := funext fun a => Fin.ext (by
    match a with
    | ⟨0, _⟩ => exact (dp_r0 _ _).trans hk
    | ⟨1, _⟩ => exact dp_r1 _ _)
  rw [el, er]

end Cert.KernelIdeal.MatmulRead

end
-- ==== Proof.LibSoftmaxShift.lean ====
/-
  Softmax on the extended reals does not see a finite shift.  For finite entries a₀ … aₙ₋₁ and a finite m,
  exp(aᵢ − m) / Σₖ exp(aₖ − m) = exp(aᵢ) / Σₖ exp(aₖ): the factor exp(−m) is a positive real and cancels.  One
  program subtracts the row maximum before exponentiating and the other does not; the maximum of finitely many
  finite entries (a fold of max from −∞) is finite, so the two agree.  None of this holds at an infinite entry,
  which is why the entries are assumed finite.
-/
import Idealize.ShloMosaic.PureOps.Ideal
import Idealize.ShloMosaic.PureOps.Ideal.Laws

noncomputable section

namespace Idealize.ShloMosaic.SoftmaxShift

open Idealize.ShloMosaic

/-- An extended real is finite when it is neither infinity. -/
def Fin' (x : EReal) : Prop := x ≠ ⊥ ∧ x ≠ ⊤

theorem Fin'.coe (r : ℝ) : Fin' (r : EReal) := ⟨EReal.coe_ne_bot r, EReal.coe_ne_top r⟩

theorem Fin'.exists_real {x : EReal} (h : Fin' x) : ∃ r : ℝ, x = (r : EReal) :=
  ⟨x.toReal, (EReal.coe_toReal h.2 h.1).symm⟩

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The −∞ word of the 32-bit format denotes the bottom of the extended reals. -/
theorem ofBits_neg_inf_f32 : Ideal.ofBits .f32 0xFF800000#32 = ⊥ := by
  simp [Ideal.ofBits, Ideal.ieee]

/-- Shift invariance over real entries. -/
theorem softmax_shift_real {n : ℕ} (hn : 0 < n) (a : Fin n → ℝ) (m : ℝ) (i : Fin n) :
    Ideal.div (Ideal.exp ((a i : EReal) - (m : EReal))) (∑ k : Fin n, Ideal.exp ((a k : EReal) - (m : EReal)))
      = Ideal.div (Ideal.exp (a i : EReal)) (∑ k : Fin n, Ideal.exp (a k : EReal)) := by
  haveI : Nonempty (Fin n) := ⟨⟨0, hn⟩⟩
  have hpos1 : 0 < ∑ k : Fin n, Real.exp (a k - m) :=
    Finset.sum_pos (fun k _ => Real.exp_pos _) Finset.univ_nonempty
  have hpos2 : 0 < ∑ k : Fin n, Real.exp (a k) :=
    Finset.sum_pos (fun k _ => Real.exp_pos _) Finset.univ_nonempty
  simp only [← EReal.coe_sub, Ideal.exp_coe, ← coe_sum]
  rw [Ideal.div_coe hpos1.ne', Ideal.div_coe hpos2.ne', ← EReal.coe_mul, ← EReal.coe_mul]
  congr 1
  have hsum : ∑ k : Fin n, Real.exp (a k - m) = (∑ k : Fin n, Real.exp (a k)) / Real.exp m := by
    rw [Finset.sum_div]; exact Finset.sum_congr rfl fun k _ => Real.exp_sub _ _
  rw [hsum, Real.exp_sub]
  have hm : Real.exp m ≠ 0 := (Real.exp_pos m).ne'
  field_simp

/-- Shift invariance over finite extended-real entries and a finite shift. -/
theorem softmax_shift {n : ℕ} (hn : 0 < n) (a : Fin n → EReal) (m : EReal) (ha : ∀ k, Fin' (a k)) (hm : Fin' m)
    (i : Fin n) :
    Ideal.div (Ideal.exp (a i - m)) (∑ k : Fin n, Ideal.exp (a k - m))
      = Ideal.div (Ideal.exp (a i)) (∑ k : Fin n, Ideal.exp (a k)) := by
  obtain ⟨mr, rfl⟩ := hm.exists_real
  have hb : ∃ b : Fin n → ℝ, ∀ k, a k = (b k : EReal) :=
    ⟨fun k => (a k).toReal, fun k => (EReal.coe_toReal (ha k).2 (ha k).1).symm⟩
  obtain ⟨b, hb⟩ := hb
  simp only [hb]
  exact softmax_shift_real hn b mr i

/-- The maximum of finitely many (at least one) finite entries, taken as a fold of max from −∞, is finite. -/
theorem fold_max_finite {n : ℕ} (hn : 0 < n) (a : Fin n → EReal) (ha : ∀ k, Fin' (a k)) :
    Fin' ((Finset.univ : Finset (Fin n)).fold max ⊥ a) := by
  constructor
  · rw [← bot_lt_iff_ne_bot, Finset.lt_fold_max]
    exact Or.inr ⟨⟨0, hn⟩, Finset.mem_univ _, bot_lt_iff_ne_bot.mpr (ha _).1⟩
  · rw [← lt_top_iff_ne_top, Finset.fold_max_lt]
    exact ⟨bot_lt_top, fun k _ => lt_top_iff_ne_top.mpr (ha k).2⟩

/-- The softmax that subtracts the row maximum (a fold of max from −∞, capped below by −∞ once more, its sum started
    at zero) is the plain softmax, at finite entries. -/
theorem softmax_max_shift {n : ℕ} (hn : 0 < n) (a : Fin n → EReal) (ha : ∀ k, Fin' (a k)) (i : Fin n) :
    Ideal.div (Ideal.exp (a i - max ⊥ ((Finset.univ : Finset (Fin n)).fold max ⊥ a)))
        (0 + ∑ k : Fin n, Ideal.exp (a k - max ⊥ ((Finset.univ : Finset (Fin n)).fold max ⊥ a)))
      = Ideal.div (Ideal.exp (a i)) (∑ k : Fin n, Ideal.exp (a k)) := by
  rw [zero_add, max_eq_right bot_le]
  exact softmax_shift hn a _ ha (fold_max_finite hn a ha) i

end Idealize.ShloMosaic.SoftmaxShift

end
-- ==== Proof.Spec.lean ====
/-
  The vocabulary both programs are written in, over plain finite families of extended reals.
  A dense row is (Σ_d x_d · w_d) + b.  The attention weights are exponentials of softmaxes: exp(softmax(·)) taken
  with the maximum subtracted first (over time, for the keys) or not (over the source positions, for the positional
  bias, in one of the two programs).  The maximum is a fold of max from −∞.
-/
import Idealize.ShloMosaic.PureOps.Ideal
import Idealize.ShloMosaic.PureOps.Ideal.Laws
import proofs.«145227_j48455821034241_2_alg».proof.Proof.LibSoftmaxShift
import Idealize.ShloMosaic.Lib.ValueIdx

noncomputable section

namespace Cert.Spec

open Idealize.ShloMosaic Idealize.ShloMosaic.SoftmaxShift Idealize.ShloMosaic.ValueIdx

/-- The −∞ and zero words of the 32-bit format, as the programs spell them. -/
abbrev ninf : EReal := Ideal.ofBits .f32 0xFF800000#32
abbrev zero32 : EReal := Ideal.ofBits .f32 0x00000000#32

theorem ninf_eq : ninf = ⊥ := ofBits_neg_inf_f32
theorem zero32_eq : zero32 = 0 := Ideal.ofBits_zero_f32

/-- A dense row: the inner product with a weight row, plus the bias. -/
def lin {n : ℕ} (x w : Fin n → EReal) (b : EReal) : EReal := (∑ d : Fin n, x d * w d) + b

/-- The maximum of a family, as a fold of max from −∞. -/
def fmax {n : ℕ} (K : Fin n → EReal) : EReal := (Finset.univ : Finset (Fin n)).fold max ninf K

/-- exp of the softmax of a family at `s`, the family shifted down by `M` first. -/
def esmAt {n : ℕ} (K : Fin n → EReal) (M : EReal) (s : Fin n) : EReal :=
  Ideal.exp (Ideal.div (Ideal.exp (K s - M)) (∑ s' : Fin n, Ideal.exp (K s' - M)))

/-- exp of the softmax of a family at `s`, no shift. -/
def esmPlain {n : ℕ} (a : Fin n → EReal) (s : Fin n) : EReal :=
  Ideal.exp (Ideal.div (Ideal.exp (a s)) (∑ s' : Fin n, Ideal.exp (a s')))

/-- The reference's spelling of the shifted form: the maximum capped below by −∞ once more, the sum started at the
    zero word.  Both decorations are identities. -/
theorem esm_ref_spelling {n : ℕ} (K : Fin n → EReal) (s : Fin n) :
    Ideal.exp (Ideal.div (Ideal.exp (K s - max ninf (fmax K))) (zero32 + ∑ s' : Fin n, Ideal.exp (K s' - max ninf (fmax K))))
      = esmAt K (fmax K) s := by
  unfold esmAt
  rw [zero32_eq, zero_add, ninf_eq, max_eq_right bot_le]

/-- At finite entries the reference's max-shifted form is the plain one (softmax does not see a finite shift). -/
theorem esm_ref_eq_plain {n : ℕ} (hn : 0 < n) (a : Fin n → EReal) (ha : ∀ k, Fin' (a k)) (s : Fin n) :
    Ideal.exp (Ideal.div (Ideal.exp (a s - max ninf (fmax a))) (zero32 + ∑ s' : Fin n, Ideal.exp (a s' - max ninf (fmax a))))
      = esmPlain a s := by
  unfold esmPlain fmax
  rw [zero32_eq, ninf_eq]
  exact congrArg Ideal.exp (softmax_max_shift hn a ha s)

/-! ### The whole computation, over the ten argument arrays -/

abbrev T3 (a b c : ℕ) := (⟨3, ![a, b, c]⟩ : Shape).Idx → EReal
abbrev T2 (a b : ℕ) := (⟨2, ![a, b]⟩ : Shape).Idx → EReal
abbrev T1 (a : ℕ) := (⟨1, ![a]⟩ : Shape).Idx → EReal

/-- A dense row of x at (b, t) against weight row h, plus the bias. -/
def dense (x : T3 8 2048 256) (W : T2 128 256) (bb : T1 128) (b : Fin 8) (t : Fin 2048) (h : Fin 128) : EReal :=
  lin (fun d : Fin 256 => x (ix3 b t d)) (fun d : Fin 256 => W (ix2 h d)) (bb (ix1 h))

/-- Row (b, t) of the positional bias. -/
def abRow (ab : T3 8 2048 2048) (b : Fin 8) (t : Fin 2048) : Fin 2048 → EReal := fun s => ab (ix3 b t s)

/-- Column (b, h) of the keys over time. -/
def kCol (x : T3 8 2048 256) (Wk : T2 128 256) (bk : T1 128) (b : Fin 8) (h : Fin 128) : Fin 2048 → EReal :=
  fun s => dense x Wk bk b s h

/-- exp(softmax over time of the keys) at (b, s, h), the maximum over time subtracted first. -/
def eK (x : T3 8 2048 256) (Wk : T2 128 256) (bk : T1 128) (b : Fin 8) (s : Fin 2048) (h : Fin 128) : EReal :=
  esmAt (kCol x Wk bk b h) (fmax (kCol x Wk bk b h)) s

/-- The gated ratio at (b, t, h), given the positional weights `EA` of row (b, t). -/
def gated (x : T3 8 2048 256) (Wq : T2 128 256) (bq : T1 128) (Wk : T2 128 256) (bk : T1 128) (Wv : T2 128 256) (bv : T1 128)
    (EA : Fin 2048 → EReal) (b : Fin 8) (t : Fin 2048) (h : Fin 128) : EReal :=
  Ideal.logistic (dense x Wq bq b t h)
    * Ideal.div (∑ s : Fin 2048, EA s * (eK x Wk bk b s h * dense x Wv bv b s h))
        (∑ s : Fin 2048, EA s * eK x Wk bk b s h)

/-- The result at (b, t, d): the gated ratio, with the plain positional weights, through the last dense layer. -/
def result (x : T3 8 2048 256) (ab : T3 8 2048 2048) (Wq : T2 128 256) (bq : T1 128) (Wk : T2 128 256) (bk : T1 128)
    (Wv : T2 128 256) (bv : T1 128) (Wp : T2 256 128) (bp : T1 256) (b : Fin 8) (t : Fin 2048) (d : Fin 256) : EReal :=
  lin (fun h : Fin 128 => gated x Wq bq Wk bk Wv bv (esmPlain (abRow ab b t)) b t h) (fun h : Fin 128 => Wp (ix2 d h)) (bp (ix1 d))

end Cert.Spec

end
-- ==== Proof.PayKV.lean ====
/-
  The first region's body, read at an index.  From one batch of x ([1,2048,256]), the concatenated weights W
  ([256,256], columns 0–127 for the keys and 128–255 for the values) and the concatenated bias ([1,256]):
  row s of K|V is x_s · W + bias; column h of the keys is turned into exp(softmax over s), the maximum over s
  subtracted first; the two stored pieces are that, and that times V.
-/
import proofs.«145227_j48455821034241_2_alg».proof.Proof.Gen.KernelIdeal.Skeleton
import proofs.«145227_j48455821034241_2_alg».proof.Proof.MatmulRead
import proofs.«145227_j48455821034241_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PayKV

open Cert.KernelIdeal Cert.KernelIdeal.Gen Cert.KernelIdeal.MatmulRead Cert.Spec
open Idealize.ShloMosaic Idealize.ShloMosaic.TcCoe Idealize.SL.Sem Idealize.ShloMosaic.ValueIdx

/-- Column h of the keys' half and of the values' half of a 256-wide row. -/
def lo (h : Fin 128) : Fin 256 := ⟨h.val, by omega⟩
def hi (h : Fin 128) : Fin 256 := ⟨128 + h.val, by omega⟩

variable (v0 : Vec Ideal S1x2048x256 .f32) (v3 : Vec Ideal S256x256 .bf16) (v6 : Vec Ideal S1x256 .f32)

/-- Row s, column j of K|V. -/
def kvRow (s : Fin 2048) (j : Fin 256) : EReal :=
  lin (fun d : Fin 256 => v0 (ix3 (0 : Fin 1) s d)) (fun d : Fin 256 => v3 (ix2 d j)) (v6 (ix2 (0 : Fin 1) j))

theorem pay1_apply (s : Fin 2048) (j : Fin 256) : k0_pay1 v0 v3 v6 (ix2 s j) = kvRow v0 v3 v6 s j := by
  unfold k0_pay1 kvRow lin
  rw [addf_apply, dkv_apply, broadcastTo_1b_ab_apply, shapeCast_self, shapeCast_self]
  refine congrArg (· + _) (Finset.sum_congr rfl fun k _ => ?_)
  rw [truncf_apply, shapeCast_1ab_ab_apply]

/-- A [2048,128] matrix's column maximum (a reduction along the rows from −∞) read at a column. -/
theorem colmax_apply (X : FVec Ideal S2048x128 .f32) (hφ : FKind.Formats .f32)
    (hacc : (0xFF800000#32 : BitVec 32) = 0xFF800000#32) (h : Fin 128) :
    multiReduction .maximumf [0] S128 X 0xFF800000#32 reduces_S2048x128_S128 hφ hacc (ix1 h)
      = fmax (fun s : Fin 2048 => X (ix2 s h)) := by
  refine (Ideal.multiReduction_maximumf_single X 0xFF800000#32 reduces_S2048x128_S128 hφ hacc (ix1 h)).trans ?_
  have e : (X ∘ reduces_S2048x128_S128.lift (ix1 h)) = fun s : Fin 2048 => X (ix2 s h) :=
    funext fun s => congrArg X (funext fun a => Fin.ext (by match a with | ⟨0, _⟩ => rfl | ⟨1, _⟩ => rfl))
  rw [e]
  rfl

/-- Its column sum read at a column. -/
theorem colsum_apply (X : FVec Ideal S2048x128 .f32) (hφ : FKind.Formats .f32)
    (hacc : (0x00000000#32 : BitVec 32) = 0x00000000#32) (h : Fin 128) :
    multiReduction .add [0] S128 X 0x00000000#32 reduces_S2048x128_S128 hφ hacc (ix1 h)
      = ∑ s : Fin 2048, X (ix2 s h) := by
  refine (Ideal.multiReduction_add_single X 0x00000000#32 reduces_S2048x128_S128 hφ hacc (ix1 h)).trans ?_
  refine Finset.sum_congr rfl fun s _ => ?_
  exact congrArg X (funext fun a => Fin.ext (by match a with | ⟨0, _⟩ => rfl | ⟨1, _⟩ => rfl))

/-- A per-column value [128] spread over the rows of a [2048,128] matrix. -/
theorem colspread_apply (c : FVec Ideal S128 .f32) (s : Fin 2048) (h : Fin 128) :
    broadcastTo S2048x128 (shapeCast S1x128 c shapeCasts_S128_S1x128) broadcasts_S1x128_S2048x128 (ix2 s h) = c (ix1 h) := by
  rw [broadcastTo_1b_ab_apply, shapeCast_a_1a_apply]

/-- exp(softmax over s) of column h of the keys, at row s. -/
theorem pay2_apply (s : Fin 2048) (h : Fin 128) :
    k0_pay2 v0 v3 v6 (ix2 s h)
      = esmAt (fun s' : Fin 2048 => kvRow v0 v3 v6 s' (lo h)) (fmax (fun s' : Fin 2048 => kvRow v0 v3 v6 s' (lo h))) s := by
  have hsl : ∀ s' : Fin 2048, extractStridedSlice S2048x128 ![0, 0] (k0_pay1 v0 v3 v6) slices_S2048x256_o0_0_S2048x128 (ix2 s' h)
      = kvRow v0 v3 v6 s' (lo h) := fun s' =>
    (slice2_axis1_apply 0 (k0_pay1 v0 v3 v6) slices_S2048x256_o0_0_S2048x128 s' h (lo h) (by simp [lo])).trans
      (pay1_apply v0 v3 v6 s' (lo h))
  unfold k0_pay2 esmAt
  generalize hX : extractStridedSlice S2048x128 ![0, 0] (k0_pay1 v0 v3 v6) slices_S2048x256_o0_0_S2048x128 = X at hsl ⊢
  show Ideal.exp (Ideal.div (Ideal.exp (X (ix2 s h) - broadcastTo S2048x128 (shapeCast S1x128 _ shapeCasts_S128_S1x128) broadcasts_S1x128_S2048x128 (ix2 s h)))
      (broadcastTo S2048x128 (shapeCast S1x128 _ shapeCasts_S128_S1x128) broadcasts_S1x128_S2048x128 (ix2 s h))) = _
  rw [colspread_apply, colspread_apply, colmax_apply, colsum_apply]
  simp only [hsl]
  refine congrArg (fun z => Ideal.exp (Ideal.div _ z)) (Finset.sum_congr rfl fun s' _ => ?_)
  show Ideal.exp (X (ix2 s' h) - broadcastTo S2048x128 (shapeCast S1x128 _ shapeCasts_S128_S1x128) broadcasts_S1x128_S2048x128 (ix2 s' h)) = _
  rw [colspread_apply, colmax_apply]
  simp only [hsl]

/-- The two stored pieces at (0, s, h). -/
theorem pay3_apply (s : Fin 2048) (h : Fin 128) :
    k0_pay3 v0 v3 v6 (ix3 (0 : Fin 1) s h)
      = esmAt (fun s' : Fin 2048 => kvRow v0 v3 v6 s' (lo h)) (fmax (fun s' : Fin 2048 => kvRow v0 v3 v6 s' (lo h))) s := by
  unfold k0_pay3
  rw [shapeCast_ab_1ab_apply, truncf_apply, pay2_apply]

theorem pay4_apply (s : Fin 2048) (h : Fin 128) :
    k0_pay4 v0 v3 v6 (ix3 (0 : Fin 1) s h)
      = esmAt (fun s' : Fin 2048 => kvRow v0 v3 v6 s' (lo h)) (fmax (fun s' : Fin 2048 => kvRow v0 v3 v6 s' (lo h))) s
        * kvRow v0 v3 v6 s (hi h) := by
  have hv : extractStridedSlice S2048x128 ![0, 128] (k0_pay1 v0 v3 v6) slices_S2048x256_o0_128_S2048x128 (ix2 s h)
      = kvRow v0 v3 v6 s (hi h) :=
    (slice2_axis1_apply 128 (k0_pay1 v0 v3 v6) slices_S2048x256_o0_128_S2048x128 s h (hi h) rfl).trans
      (pay1_apply v0 v3 v6 s (hi h))
  unfold k0_pay4
  rw [shapeCast_ab_1ab_apply, truncf_apply, mulf_apply, pay2_apply, hv]

end Cert.KernelIdeal.PayKV

end
-- ==== Proof.OutKV.lean ====
/-
  The block the first region's body leaves in its output buffer, read at an index.  The body stores two pieces side
  by side: columns 0–127 hold exp(softmax over time of the keys), columns 128–255 that times the values.
-/
import proofs.«145227_j48455821034241_2_alg».proof.Proof.Gen.KernelIdeal.Frame
import proofs.«145227_j48455821034241_2_alg».proof.Proof.PayKV

set_option maxRecDepth 16384

noncomputable section

namespace Cert.KernelIdeal.OutKV

open Cert.KernelIdeal Cert.KernelIdeal.Gen Cert.KernelIdeal.PayKV Cert.Spec
open Idealize.ShloMosaic Idealize.ShloMosaic.TcCoe Idealize.SL.Sem Idealize.ShloMosaic.ValueIdx

variable (v0 : Vec Ideal S1x2048x256 .f32) (v3 : Vec Ideal S256x256 .bf16) (v6 : Vec Ideal S1x256 .f32)

theorem hz3 : (![0, 0, 0] : Fin 3 → Nat) = fun _ => 0 := funext fun a => by fin_cases a <;> rfl
theorem hz2 : (![0, 0] : Fin 2 → Nat) = fun _ => 0 := funext fun a => by fin_cases a <;> rfl

/-- The body loads its three inputs whole, so the block is the two stored pieces of the inputs themselves. -/
theorem out_eq : out0_3 v0 v3 v6
    = View.canon [⟨r0_4, k0_pay4 v0 v3 v6⟩, ⟨r0_3, k0_pay3 v0 v3 v6⟩] := by
  unfold out0_3
  rw [View.ld_unit_zero (S := S1x2048x256) hz3, View.ld_unit_zero (S := S256x256) hz2, View.ld_unit_zero (S := S1x256) hz2]

theorem emb_hi (s : Fin 2048) (h : Fin 128) :
    (ix3 (0 : Fin 1) s (hi h) : S1x2048x256.Idx) = r0_4.emb (ix3 (0 : Fin 1) s h : S1x2048x128.Idx) :=
  funext fun a => Fin.ext (by
    match a with
    | ⟨0, _⟩ => rfl
    | ⟨1, _⟩ => show s.val = 0 + 1 * s.val; omega
    | ⟨2, _⟩ => show 128 + h.val = 128 + 1 * h.val; omega)

theorem emb_lo (s : Fin 2048) (h : Fin 128) :
    (ix3 (0 : Fin 1) s (lo h) : S1x2048x256.Idx) = r0_3.emb (ix3 (0 : Fin 1) s h : S1x2048x128.Idx) :=
  funext fun a => Fin.ext (by
    match a with
    | ⟨0, _⟩ => rfl
    | ⟨1, _⟩ => show s.val = 0 + 1 * s.val; omega
    | ⟨2, _⟩ => show h.val = 0 + 1 * h.val; omega)

theorem lo_not_mem (s : Fin 2048) (h : Fin 128) : (ix3 (0 : Fin 1) s (lo h) : S1x2048x256.Idx) ∉ r0_4.set := by
  rw [Rect.mem_set_unit]
  intro hm
  have h2 : (128 : ℕ) ≤ h.val := (hm 2).1
  omega

/-- At a column of the values' half: the later store's payload. -/
theorem out_hi (s : Fin 2048) (h : Fin 128) :
    out0_3 v0 v3 v6 (ix3 (0 : Fin 1) s (hi h))
      = esmAt (fun s' : Fin 2048 => kvRow v0 v3 v6 s' (lo h)) (fmax (fun s' : Fin 2048 => kvRow v0 v3 v6 s' (lo h))) s
        * kvRow v0 v3 v6 s (hi h) := by
  rw [out_eq]
  refine (congrArg (View.canon ([⟨r0_4, k0_pay4 v0 v3 v6⟩, ⟨r0_3, k0_pay3 v0 v3 v6⟩] : List (View.Piece (Elt Ideal) S1x2048x256 .bf16))) (emb_hi s h)).trans ?_
  have hc := View.canon_cons_emb (Val := Elt Ideal) (s := S1x2048x256) (e := .bf16) r0_4 (k0_pay4 v0 v3 v6)
    [⟨r0_3, k0_pay3 v0 v3 v6⟩] (ix3 (0 : Fin 1) s h)
  exact hc.trans (pay4_apply v0 v3 v6 s h)

/-- At a column of the keys' half: the earlier store's payload (the later store does not reach it). -/
theorem out_lo (s : Fin 2048) (h : Fin 128) :
    out0_3 v0 v3 v6 (ix3 (0 : Fin 1) s (lo h))
      = esmAt (fun s' : Fin 2048 => kvRow v0 v3 v6 s' (lo h)) (fmax (fun s' : Fin 2048 => kvRow v0 v3 v6 s' (lo h))) s := by
  rw [out_eq]
  refine (View.canon_cons_of_not_mem (Val := Elt Ideal) (s := S1x2048x256) (e := .bf16) ⟨r0_4, k0_pay4 v0 v3 v6⟩
    [⟨r0_3, k0_pay3 v0 v3 v6⟩] (lo_not_mem s h)).trans ?_
  refine (congrArg (View.canon ([⟨r0_3, k0_pay3 v0 v3 v6⟩] : List (View.Piece (Elt Ideal) S1x2048x256 .bf16))) (emb_lo s h)).trans ?_
  have hc := View.canon_cons_emb (Val := Elt Ideal) (s := S1x2048x256) (e := .bf16) r0_3 (k0_pay3 v0 v3 v6)
    [] (ix3 (0 : Fin 1) s h)
  exact hc.trans (pay3_apply v0 v3 v6 s h)

end Cert.KernelIdeal.OutKV

end
-- ==== Proof.PayAft.lean ====
/-
  The second region's body, read at an index.  From 512 rows of a batch of x and of the positional bias, the query
  weights and bias, one batch of the first region's array E = [eK | eK·V], and the output weights and bias:
  row r of the output is  (σ(q_r) ⊙ (ea_r · (eK·V)) / (ea_r · eK)) · Wp + bp,  where q_r = x_r · Wq + bq and
  ea_r = exp(softmax of row r of the positional bias) — this program takes that softmax WITHOUT subtracting the row
  maximum.  The two products against E are one product with the 256-wide E, split into its halves afterwards.
-/
import proofs.«145227_j48455821034241_2_alg».proof.Proof.Gen.KernelIdeal.Skeleton
import proofs.«145227_j48455821034241_2_alg».proof.Proof.MatmulRead
import proofs.«145227_j48455821034241_2_alg».proof.Proof.PayKV
import proofs.«145227_j48455821034241_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PayAft

open Cert.KernelIdeal Cert.KernelIdeal.Gen Cert.KernelIdeal.MatmulRead Cert.Spec
open Cert.KernelIdeal.PayKV (lo hi)
open Idealize.ShloMosaic Idealize.ShloMosaic.TcCoe Idealize.SL.Sem Idealize.ShloMosaic.ValueIdx

/-- A [512,2048] matrix's row sum read at a row. -/
theorem rowsum_apply (X : FVec Ideal S512x2048 .f32) (hφ : FKind.Formats .f32)
    (hacc : (0x00000000#32 : BitVec 32) = 0x00000000#32) (r : Fin 512) :
    multiReduction .add [1] S512 X 0x00000000#32 reduces_S512x2048_S512 hφ hacc (ix1 r)
      = ∑ s : Fin 2048, X (ix2 r s) := by
  refine (Ideal.multiReduction_add_single X 0x00000000#32 reduces_S512x2048_S512 hφ hacc (ix1 r)).trans ?_
  refine Finset.sum_congr rfl fun s _ => ?_
  exact congrArg X (funext fun a => Fin.ext (by match a with | ⟨0, _⟩ => rfl | ⟨1, _⟩ => rfl))

/-- A per-row value [512] kept as a column [512,1] and spread over the 2048 columns. -/
theorem rowspread_apply (c : FVec Ideal S512 .f32) (r : Fin 512) (s : Fin 2048) :
    broadcastTo S512x2048 (shapeCast S512x1 c shapeCasts_S512_S512x1) broadcasts_S512x1_S512x2048 (ix2 r s) = c (ix1 r) := by
  refine (broadcastTo_apply _ broadcasts_S512x1_S512x2048 (ix2 r s) (ix2 r (0 : Fin 1)) (fun a => by
      match a with
      | ⟨0, _⟩ => rfl
      | ⟨1, _⟩ => rfl)).trans ?_
  exact shapeCast_apply c shapeCasts_S512_S512x1 (ix2 r (0 : Fin 1)) (ix1 r) (by
    rw [Shape.rowMajor_val_one, Shape.rowMajor_val_two]
    show r.val = r.val * 1 + 0
    omega)

variable (v0 : FVec Ideal S1x512x256 .f32) (v3 : FVec Ideal S256x128 .bf16) (v6 : FVec Ideal S1x128 .f32)
  (v11 : FVec Ideal S1x512x2048 .f32) (v20 : FVec Ideal S1x2048x256 .bf16) (v28 : FVec Ideal S128x256 .bf16)
  (v31 : FVec Ideal S1x256 .f32)

/-! ### The mathematics, over coordinates -/

/-- The query row. -/
def qrow (r : Fin 512) (h : Fin 128) : EReal :=
  lin (fun d : Fin 256 => v0 (ix3 (0 : Fin 1) r d)) (fun d : Fin 256 => v3 (ix2 d h)) (v6 (ix2 (0 : Fin 1) h))
/-- exp(softmax of row r of the positional bias) at column s, no maximum subtracted. -/
def ea (r : Fin 512) (s : Fin 2048) : EReal := esmPlain (fun s' : Fin 2048 => v11 (ix3 (0 : Fin 1) r s')) s
/-- Row r of ea times column j of the first region's block. -/
def comb (r : Fin 512) (j : Fin 256) : EReal := ∑ s : Fin 2048, ea v11 r s * v20 (ix3 (0 : Fin 1) s j)
/-- The gated ratio. -/
def yt (r : Fin 512) (h : Fin 128) : EReal :=
  Ideal.logistic (qrow v0 v3 v6 r h) * Ideal.div (comb v11 v20 r (hi h)) (comb v11 v20 r (lo h))
/-- The output row. -/
def outRow (r : Fin 512) (d : Fin 256) : EReal :=
  lin (fun h : Fin 128 => yt v0 v3 v6 v11 v20 r h) (fun h : Fin 128 => v28 (ix2 h d)) (v31 (ix2 (0 : Fin 1) d))

/-! ### The payload's sub-terms, as vectors -/

def eaVec : FVec Ideal S512x2048 .f32 :=
  exp (divf (exp (shapeCast S512x2048 v11 shapeCasts_S1x512x2048_S512x2048))
    (broadcastTo S512x2048 (shapeCast S512x1 (multiReduction .add [1] S512 (exp (shapeCast S512x2048 v11 shapeCasts_S1x512x2048_S512x2048))
      0x00000000#32 reduces_S512x2048_S512 (.inl rfl) rfl) shapeCasts_S512_S512x1) broadcasts_S512x1_S512x2048))

def qVec : FVec Ideal S512x128 .f32 :=
  addf (matmul dot_S512x256_S256x128_S512x128_1_0_0_1_n_n none
      (truncf .bf16 (shapeCast S512x256 v0 shapeCasts_S1x512x256_S512x256) bitsLt_bf16_f32)
      (shapeCast S256x128 v3 shapeCasts_S256x128_S256x128) (constant (F := Ideal) S512x128 .f32 0x00000000#32))
    (broadcastTo S512x128 (shapeCast S1x128 v6 shapeCasts_S1x128_S1x128) broadcasts_S1x128_S512x128)

def combVec : FVec Ideal S512x256 .f32 :=
  matmul dot_S512x2048_S2048x256_S512x256_1_0_0_1_n_n none (truncf .bf16 (eaVec v11) bitsLt_bf16_f32)
    (shapeCast S2048x256 v20 shapeCasts_S1x2048x256_S2048x256) (constant (F := Ideal) S512x256 .f32 0x00000000#32)

def ytVec : FVec Ideal S512x128 .f32 :=
  mulf (logistic (qVec v0 v3 v6))
    (divf (extractStridedSlice S512x128 ![0, 128] (combVec v11 v20) slices_S512x256_o0_128_S512x128)
      (extractStridedSlice S512x128 ![0, 0] (combVec v11 v20) slices_S512x256_o0_0_S512x128))

/-- The payload is those sub-terms put together. -/
theorem pay2_eq : k1_pay2 (F := Ideal) v0 v3 v6 v11 v20 v28 v31
    = addf (matmul dot_S512x128_S128x256_S512x256_1_0_0_1_n_n none (truncf .bf16 (ytVec v0 v3 v6 v11 v20) bitsLt_bf16_f32)
        (shapeCast S128x256 v28 shapeCasts_S128x256_S128x256) (constant (F := Ideal) S512x256 .f32 0x00000000#32))
      (broadcastTo S512x256 (shapeCast S1x256 v31 shapeCasts_S1x256_S1x256) broadcasts_S1x256_S512x256) := rfl

/-! ### Each sub-term at an index -/

theorem eaVec_apply (r : Fin 512) (s : Fin 2048) : eaVec v11 (ix2 r s) = ea v11 r s := by
  unfold eaVec ea esmPlain
  show Ideal.exp (Ideal.div (Ideal.exp (shapeCast S512x2048 v11 shapeCasts_S1x512x2048_S512x2048 (ix2 r s)))
    (broadcastTo S512x2048 (shapeCast S512x1 _ shapeCasts_S512_S512x1) broadcasts_S512x1_S512x2048 (ix2 r s))) = _
  rw [rowspread_apply, rowsum_apply, shapeCast_1ab_ab_apply]
  refine congrArg (fun z => Ideal.exp (Ideal.div _ z)) (Finset.sum_congr rfl fun s' _ => ?_)
  show Ideal.exp (shapeCast S512x2048 v11 shapeCasts_S1x512x2048_S512x2048 (ix2 r s')) = _
  rw [shapeCast_1ab_ab_apply]

theorem qVec_apply (r : Fin 512) (h : Fin 128) : qVec v0 v3 v6 (ix2 r h) = qrow v0 v3 v6 r h := by
  unfold qVec qrow lin
  rw [addf_apply, dq_apply, broadcastTo_1b_ab_apply, shapeCast_self, shapeCast_self]
  refine congrArg (· + _) (Finset.sum_congr rfl fun k _ => ?_)
  rw [truncf_apply, shapeCast_1ab_ab_apply]

theorem combVec_apply (r : Fin 512) (j : Fin 256) : combVec v11 v20 (ix2 r j) = comb v11 v20 r j := by
  unfold combVec comb
  rw [dc_apply]
  refine Finset.sum_congr rfl fun k _ => ?_
  rw [truncf_apply, eaVec_apply, shapeCast_1ab_ab_apply]

theorem ytVec_apply (r : Fin 512) (h : Fin 128) : ytVec v0 v3 v6 v11 v20 (ix2 r h) = yt v0 v3 v6 v11 v20 r h := by
  have hhi : extractStridedSlice S512x128 ![0, 128] (combVec v11 v20) slices_S512x256_o0_128_S512x128 (ix2 r h)
      = comb v11 v20 r (hi h) :=
    (slice2_axis1_apply 128 (combVec v11 v20) slices_S512x256_o0_128_S512x128 r h (hi h) rfl).trans
      (combVec_apply v11 v20 r (hi h))
  have hlo : extractStridedSlice S512x128 ![0, 0] (combVec v11 v20) slices_S512x256_o0_0_S512x128 (ix2 r h)
      = comb v11 v20 r (lo h) :=
    (slice2_axis1_apply 0 (combVec v11 v20) slices_S512x256_o0_0_S512x128 r h (lo h) (by simp [lo])).trans
      (combVec_apply v11 v20 r (lo h))
  unfold ytVec yt
  show Ideal.logistic (qVec v0 v3 v6 (ix2 r h)) * Ideal.div
    (extractStridedSlice S512x128 ![0, 128] (combVec v11 v20) slices_S512x256_o0_128_S512x128 (ix2 r h))
    (extractStridedSlice S512x128 ![0, 0] (combVec v11 v20) slices_S512x256_o0_0_S512x128 (ix2 r h)) = _
  rw [qVec_apply, hhi, hlo]

/-- The value the body computes, at (r, d). -/
theorem pay2_apply (r : Fin 512) (d : Fin 256) :
    k1_pay2 (F := Ideal) v0 v3 v6 v11 v20 v28 v31 (ix2 r d) = outRow v0 v3 v6 v11 v20 v28 v31 r d := by
  rw [pay2_eq]
  unfold outRow lin
  rw [addf_apply, dp_apply, broadcastTo_1b_ab_apply, shapeCast_self, shapeCast_self]
  refine congrArg (· + _) (Finset.sum_congr rfl fun k _ => ?_)
  rw [truncf_apply, ytVec_apply]

/-- … and the stored block (the same, under a leading unit axis) at (0, r, d). -/
theorem pay1_apply (r : Fin 512) (d : Fin 256) :
    k1_pay1 (F := Ideal) (k1_pay2 (F := Ideal) v0 v3 v6 v11 v20 v28 v31) (ix3 (0 : Fin 1) r d) = outRow v0 v3 v6 v11 v20 v28 v31 r d := by
  unfold k1_pay1
  rw [shapeCast_ab_1ab_apply, pay2_apply]

end Cert.KernelIdeal.PayAft

end
-- ==== Proof.HostRead.lean ====
/-
  The host operations before the two regions, read at coordinates.  They only re-lay the weights: Wq, Wk, Wv, Wp are
  transposed, Wkᵀ and Wvᵀ are put side by side into one [256,256] matrix (columns 0–127 the keys', 128–255 the
  values'), bk and bv end to end into one [1,256] row, and bq, bp get a leading unit axis.  No arithmetic: a change of
  float format is the identity on the extended reals.
-/
import proofs.«145227_j48455821034241_2_alg».proof.Proof.Gen.KernelIdeal.Frame
import proofs.«145227_j48455821034241_2_alg».proof.Proof.PayKV
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostRead

open Cert.KernelIdeal Cert.KernelIdeal.Gen
open Cert.KernelIdeal.PayKV (lo hi)
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The launched argument arrays, as plain functions of an index. -/
abbrev A0 (c : Dev nD) : S8x2048x256.Idx → EReal := m ((c : Thread nD τ).loc main_arg0)
abbrev A1 (c : Dev nD) : S8x2048x2048.Idx → EReal := m ((c : Thread nD τ).loc main_arg1)
abbrev A2 (c : Dev nD) : S128x256.Idx → EReal := m ((c : Thread nD τ).loc main_arg2)
abbrev A3 (c : Dev nD) : S128.Idx → EReal := m ((c : Thread nD τ).loc main_arg3)
abbrev A4 (c : Dev nD) : S128x256.Idx → EReal := m ((c : Thread nD τ).loc main_arg4)
abbrev A5 (c : Dev nD) : S128.Idx → EReal := m ((c : Thread nD τ).loc main_arg5)
abbrev A6 (c : Dev nD) : S128x256.Idx → EReal := m ((c : Thread nD τ).loc main_arg6)
abbrev A7 (c : Dev nD) : S128.Idx → EReal := m ((c : Thread nD τ).loc main_arg7)
abbrev A8 (c : Dev nD) : S256x128.Idx → EReal := m ((c : Thread nD τ).loc main_arg8)
abbrev A9 (c : Dev nD) : S256.Idx → EReal := m ((c : Thread nD τ).loc main_arg9)

/-! ### Each buffer the regions read, as the operations' term -/

theorem V1_arg0 (c : Dev nD) : (V1 (F := Ideal) m ρ c main_arg0 : S8x2048x256.Idx → EReal) = A0 m c := by
  dsimp only [V1, W1, hostOps0]; after_results

theorem V1_arg1 (c : Dev nD) : (V1 (F := Ideal) m ρ c main_arg1 : S8x2048x2048.Idx → EReal) = A1 m c := by
  dsimp only [V1, W1, hostOps0]; after_results

theorem V1_v1 (c : Dev nD) : (V1 (F := Ideal) m ρ c main_v1 : S256x128.Idx → EReal)
    = (truncf (F := Ideal) .bf16 (transpose S256x128 [1, 0] (A2 m c) transposes_S128x256_S256x128_1_0) bitsLt_bf16_f32 : S256x128.Idx → EReal) := by
  dsimp only [V1, W1, hostOps0]; after_results

theorem V1_v5 (c : Dev nD) : (V1 (F := Ideal) m ρ c main_v5 : S256x256.Idx → EReal)
    = (truncf (F := Ideal) .bf16 (concatenate S256x256 1
        [⟨S256x128, transpose S256x128 [1, 0] (A4 m c) transposes_S128x256_S256x128_1_0⟩,
          ⟨S256x128, transpose S256x128 [1, 0] (A6 m c) transposes_S128x256_S256x128_1_0⟩]
        concatenates_S256x128_S256x128_S256x256_d1) bitsLt_bf16_f32 : S256x256.Idx → EReal) := by
  dsimp only [V1, W1, hostOps0]; after_results

theorem V1_v7 (c : Dev nD) : (V1 (F := Ideal) m ρ c main_v7 : S1x256.Idx → EReal)
    = shapeCast S1x256 (concatenate S256 0 [⟨S128, A5 m c⟩, ⟨S128, A7 m c⟩] concatenates_S128_S128_S256_d0) shapeCasts_S256_S1x256 := by
  dsimp only [V1, W1, hostOps0]; after_results; rfl

theorem V1_v8 (c : Dev nD) : (V1 (F := Ideal) m ρ c main_v8 : S1x128.Idx → EReal)
    = shapeCast S1x128 (A3 m c) shapeCasts_S128_S1x128 := by
  dsimp only [V1, W1, hostOps0]; after_results; rfl

theorem V1_v10 (c : Dev nD) : (V1 (F := Ideal) m ρ c main_v10 : S128x256.Idx → EReal)
    = (truncf (F := Ideal) .bf16 (transpose S128x256 [1, 0] (A8 m c) transposes_S256x128_S128x256_1_0) bitsLt_bf16_f32 : S128x256.Idx → EReal) := by
  dsimp only [V1, W1, hostOps0]; after_results

theorem V1_v11 (c : Dev nD) : (V1 (F := Ideal) m ρ c main_v11 : S1x256.Idx → EReal)
    = shapeCast S1x256 (A9 m c) shapeCasts_S256_S1x256 := by
  dsimp only [V1, W1, hostOps0]; after_results; rfl

/-! ### … and at coordinates -/

theorem v1_at (c : Dev nD) (d : Fin 256) (h : Fin 128) :
    (V1 (F := Ideal) m ρ c main_v1 : S256x128.Idx → EReal) (ix2 d h) = A2 m c (ix2 h d) := by
  rw [V1_v1]
  exact transpose_ix2_apply (A2 m c) transposes_S128x256_S256x128_1_0 d h

theorem v10_at (c : Dev nD) (h : Fin 128) (d : Fin 256) :
    (V1 (F := Ideal) m ρ c main_v10 : S128x256.Idx → EReal) (ix2 h d) = A8 m c (ix2 d h) := by
  rw [V1_v10]
  exact transpose_ix2_apply (A8 m c) transposes_S256x128_S128x256_1_0 h d

theorem v8_at (c : Dev nD) (h : Fin 128) :
    (V1 (F := Ideal) m ρ c main_v8 : S1x128.Idx → EReal) (ix2 (0 : Fin 1) h) = A3 m c (ix1 h) := by
  rw [V1_v8]
  exact shapeCast_a_1a_apply (A3 m c) shapeCasts_S128_S1x128 0 h

theorem v11_at (c : Dev nD) (d : Fin 256) :
    (V1 (F := Ideal) m ρ c main_v11 : S1x256.Idx → EReal) (ix2 (0 : Fin 1) d) = A9 m c (ix1 d) := by
  rw [V1_v11]
  exact shapeCast_a_1a_apply (A9 m c) shapeCasts_S256_S1x256 0 d

theorem v5_lo (c : Dev nD) (d : Fin 256) (h : Fin 128) :
    (V1 (F := Ideal) m ρ c main_v5 : S256x256.Idx → EReal) (ix2 d (lo h)) = A4 m c (ix2 h d) := by
  rw [V1_v5]
  refine (concatenate_pair_apply_left (t := S256x256) (s₁ := S256x128) (s₂ := S256x128) (1 : Fin 2) _ _ concatenates_S256x128_S256x128_S256x256_d1 (ix2 d (lo h)) rfl
    (ix2 d h) (fun b => by match b with | ⟨0, _⟩ => rfl | ⟨1, _⟩ => rfl)).trans ?_
  exact transpose_ix2_apply (A4 m c) transposes_S128x256_S256x128_1_0 d h

theorem v5_hi (c : Dev nD) (d : Fin 256) (h : Fin 128) :
    (V1 (F := Ideal) m ρ c main_v5 : S256x256.Idx → EReal) (ix2 d (hi h)) = A6 m c (ix2 h d) := by
  rw [V1_v5]
  refine (concatenate_pair_apply_right (t := S256x256) (s₁ := S256x128) (s₂ := S256x128) (1 : Fin 2) _ _ concatenates_S256x128_S256x128_S256x256_d1 (ix2 d (hi h)) rfl rfl
    (ix2 d h) (fun b hb => by
      match b with
      | ⟨0, _⟩ => rfl
      | ⟨1, _⟩ => exact absurd rfl hb)
    (by show h.val + 128 = 128 + h.val; omega)).trans ?_
  exact transpose_ix2_apply (A6 m c) transposes_S128x256_S256x128_1_0 d h

theorem v7_lo (c : Dev nD) (h : Fin 128) :
    (V1 (F := Ideal) m ρ c main_v7 : S1x256.Idx → EReal) (ix2 (0 : Fin 1) (lo h)) = A5 m c (ix1 h) := by
  rw [V1_v7]
  refine (shapeCast_a_1a_apply _ shapeCasts_S256_S1x256 0 (lo h)).trans ?_
  exact concatenate_pair_apply_left (t := S256) (s₁ := S128) (s₂ := S128) (0 : Fin 1) (A5 m c) (A7 m c) concatenates_S128_S128_S256_d0 (ix1 (lo h)) rfl
    (ix1 h) (fun b => by match b with | ⟨0, _⟩ => rfl)

theorem v7_hi (c : Dev nD) (h : Fin 128) :
    (V1 (F := Ideal) m ρ c main_v7 : S1x256.Idx → EReal) (ix2 (0 : Fin 1) (hi h)) = A7 m c (ix1 h) := by
  rw [V1_v7]
  refine (shapeCast_a_1a_apply _ shapeCasts_S256_S1x256 0 (hi h)).trans ?_
  exact concatenate_pair_apply_right (t := S256) (s₁ := S128) (s₂ := S128) (0 : Fin 1) (A5 m c) (A7 m c) concatenates_S128_S128_S256_d0 (ix1 (hi h)) rfl rfl
    (ix1 h) (fun b hb => by
      match b with
      | ⟨0, _⟩ => exact absurd rfl hb)
    (by show h.val + 128 = 128 + h.val; omega)

end Cert.KernelIdeal.HostRead

end
-- ==== Proof.KernelValue.lean ====
/-
  The idealized kernel program's result array, entry by entry.  The second region's write-backs leave, at (b, t, d), its
  body's function of: rows of batch b of x and of the positional bias, the re-laid weights, and batch b of the first
  region's array — which holds exp(softmax over time of the keys) in its left half and that times the values in its
  right half.  Put together, entry (b, t, d) is the gated ratio through the last dense layer, with the positional
  weights exp(softmax of row (b, t) of the positional bias) taken without subtracting the row maximum.
-/
import proofs.«145227_j48455821034241_2_alg».proof.Proof.KernelRun
import proofs.«145227_j48455821034241_2_alg».proof.Proof.RegionKV
import proofs.«145227_j48455821034241_2_alg».proof.Proof.RegionAft
import proofs.«145227_j48455821034241_2_alg».proof.Proof.OutKV
import proofs.«145227_j48455821034241_2_alg».proof.Proof.PayAft
import proofs.«145227_j48455821034241_2_alg».proof.Proof.HostRead
import proofs.«145227_j48455821034241_2_alg».proof.Proof.Spec

set_option maxRecDepth 16384

noncomputable section

namespace Cert.KernelIdeal.KernelValue

open Cert.KernelIdeal Cert.KernelIdeal.Gen Cert.Spec
open Cert.KernelIdeal.PayKV (lo hi kvRow)
open Cert.KernelIdeal.RegionKV (kvArr batchOf)
open Cert.KernelIdeal.RegionAft (aftArr rows256 rows2048 batchOfB qOf rOf)
open Cert.KernelIdeal.HostRead
open Idealize.ShloMosaic Idealize.ShloMosaic.TcCoe Idealize.SL.Sem Idealize.ShloMosaic.ValueIdx

variable (m : (ℓ : Loc nD τ sig) → Buf (Elt Ideal) ℓ) (ρ : Dev nD → PrngReg)

/-! ### What the second region finds -/

theorem V2_arg0 (c : Dev nD) : (V2 (F := Ideal) m ρ c main_arg0 : S8x2048x256.Idx → EReal) = A0 m c :=
  ((W2_arr m ρ c 0).trans (((dat0 (V1 m ρ) c).arrAt_in 0 rfl _).trans (A_eq0 (V1 m ρ) c 0))).trans (V1_arg0 m ρ c)

theorem V2_arg1 (c : Dev nD) : (V2 (F := Ideal) m ρ c main_arg1 : S8x2048x2048.Idx → EReal) = A1 m c :=
  (W2_of_ne m ρ c main_arg1 (by decide)).trans (V1_arg1 m ρ c)

theorem V2_v1 (c : Dev nD) : V2 (F := Ideal) m ρ c main_v1 = V1 m ρ c main_v1 := W2_of_ne m ρ c main_v1 (by decide)
theorem V2_v8 (c : Dev nD) : V2 (F := Ideal) m ρ c main_v8 = V1 m ρ c main_v8 := W2_of_ne m ρ c main_v8 (by decide)
theorem V2_v10 (c : Dev nD) : V2 (F := Ideal) m ρ c main_v10 = V1 m ρ c main_v10 := W2_of_ne m ρ c main_v10 (by decide)
theorem V2_v11 (c : Dev nD) : V2 (F := Ideal) m ρ c main_v11 = V1 m ρ c main_v11 := W2_of_ne m ρ c main_v11 (by decide)

theorem V2_v12 (c : Dev nD) : (V2 (F := Ideal) m ρ c main_v12 : S8x2048x256.Idx → EReal)
    = kvArr (A0 m c) (V1 m ρ c main_v5) (V1 m ρ c main_v7) := by
  refine ((W2_arr m ρ c 3).trans (RegionKV.arr_eq (V1 m ρ) c)).trans ?_
  rw [V1_arg0]

/-- The result array is the second region's array function of what it finds. -/
theorem W3_v13 (c : Dev nD) : (W3 (F := Ideal) m ρ c (Proc.devRef .tc main_v13) : S8x2048x256.Idx → EReal)
    = aftArr (A0 m c) (A1 m c) (V1 m ρ c main_v1) (V1 m ρ c main_v8)
        (kvArr (A0 m c) (V1 m ρ c main_v5) (V1 m ρ c main_v7)) (V1 m ρ c main_v10) (V1 m ρ c main_v11) := by
  refine ((W3_arr m ρ c 7).trans (RegionAft.arr_eq (V2 m ρ) c)).trans ?_
  rw [V2_arg0, V2_arg1, V2_v1, V2_v8, V2_v10, V2_v11, V2_v12]

/-! ### The second region's block function at an index -/

theorem hz3 : (![0, 0, 0] : Fin 3 → Nat) = fun _ => 0 := funext fun a => by fin_cases a <;> rfl
theorem hz2 : (![0, 0] : Fin 2 → Nat) = fun _ => 0 := funext fun a => by fin_cases a <;> rfl

theorem out1_eq (x0 : FVec Ideal S1x512x256 .f32) (x1 : FVec Ideal S1x512x2048 .f32) (x2 : FVec Ideal S256x128 .bf16)
    (x3 : FVec Ideal S1x128 .f32) (x4 : FVec Ideal S1x2048x256 .bf16) (x5 : FVec Ideal S128x256 .bf16) (x6 : FVec Ideal S1x256 .f32) :
    out1_7 (F := Ideal) x0 x1 x2 x3 x4 x5 x6 = k1_pay1 (F := Ideal) (k1_pay2 (F := Ideal) x0 x2 x3 x1 x4 x5 x6) := by
  unfold out1_7
  rw [View.canon_unit_zero hz3, View.ld_unit_zero (S := S1x512x256) hz3, View.ld_unit_zero (S := S256x128) hz2,
    View.ld_unit_zero (S := S1x128) hz2, View.ld_unit_zero (S := S1x512x2048) hz3, View.ld_unit_zero (S := S1x2048x256) hz3,
    View.ld_unit_zero (S := S128x256) hz2, View.ld_unit_zero (S := S1x256) hz2]

/-! ### The blocks, read back as entries of the arrays -/

theorem rows256_at (x : S8x2048x256.Idx → EReal) (b : Fin 8) (t : Fin 2048) (d : Fin 256) :
    rows256 (F := Ideal) x b (qOf t) (ix3 (0 : Fin 1) (rOf t) d) = x (ix3 b t d) := by
  unfold rows256
  refine congrArg x (funext fun a => Fin.ext ?_)
  match a with
  | ⟨0, _⟩ => rfl
  | ⟨1, _⟩ => show t.val / 512 * 512 + t.val % 512 = t.val; omega
  | ⟨2, _⟩ => rfl

theorem rows2048_at (x : S8x2048x2048.Idx → EReal) (b : Fin 8) (t s : Fin 2048) :
    rows2048 (F := Ideal) x b (qOf t) (ix3 (0 : Fin 1) (rOf t) s) = x (ix3 b t s) := by
  unfold rows2048
  refine congrArg x (funext fun a => Fin.ext ?_)
  match a with
  | ⟨0, _⟩ => rfl
  | ⟨1, _⟩ => show t.val / 512 * 512 + t.val % 512 = t.val; omega
  | ⟨2, _⟩ => rfl

/-- A batch block of the first region's array, read back as an entry of the array. -/
theorem batchOfB_at (x : S8x2048x256.Idx → EReal) (b : Fin 8) (s : Fin 2048) (j : Fin 256) :
    batchOfB (F := Ideal) x b (ix3 (0 : Fin 1) s j) = x (ix3 b s j) := rfl

/-- Row s, column j of K|V of batch b, in terms of the launched arrays: the keys' half … -/
theorem kvRow_lo (c : Dev nD) (b : Fin 8) (s : Fin 2048) (h : Fin 128) :
    kvRow (batchOf (F := Ideal) (A0 m c) b) (V1 m ρ c main_v5) (V1 m ρ c main_v7) s (lo h)
      = dense (A0 m c) (A4 m c) (A5 m c) b s h := by
  unfold kvRow dense
  rw [v7_lo]
  refine congrArg (fun w => lin _ w _) (funext fun d => ?_)
  exact v5_lo m ρ c d h

/-- … and the values' half. -/
theorem kvRow_hi (c : Dev nD) (b : Fin 8) (s : Fin 2048) (h : Fin 128) :
    kvRow (batchOf (F := Ideal) (A0 m c) b) (V1 m ρ c main_v5) (V1 m ρ c main_v7) s (hi h)
      = dense (A0 m c) (A6 m c) (A7 m c) b s h := by
  unfold kvRow dense
  rw [v7_hi]
  refine congrArg (fun w => lin _ w _) (funext fun d => ?_)
  exact v5_hi m ρ c d h

/-- The first region's array: its left half holds exp(softmax over time of the keys) … -/
theorem ek_lo (c : Dev nD) (b : Fin 8) (s : Fin 2048) (h : Fin 128) :
    kvArr (F := Ideal) (A0 m c) (V1 m ρ c main_v5) (V1 m ρ c main_v7) (ix3 b s (lo h))
      = eK (A0 m c) (A4 m c) (A5 m c) b s h := by
  show out0_3 (batchOf (A0 m c) b) (V1 m ρ c main_v5) (V1 m ρ c main_v7) (ix3 (0 : Fin 1) s (lo h)) = _
  rw [OutKV.out_lo]
  unfold eK kCol
  have e : (fun s' : Fin 2048 => kvRow (batchOf (A0 m c) b) (V1 m ρ c main_v5) (V1 m ρ c main_v7) s' (lo h))
      = fun s' : Fin 2048 => dense (A0 m c) (A4 m c) (A5 m c) b s' h := funext fun s' => kvRow_lo m ρ c b s' h
  rw [e]

/-- … and its right half that times the values. -/
theorem ek_hi (c : Dev nD) (b : Fin 8) (s : Fin 2048) (h : Fin 128) :
    kvArr (F := Ideal) (A0 m c) (V1 m ρ c main_v5) (V1 m ρ c main_v7) (ix3 b s (hi h))
      = eK (A0 m c) (A4 m c) (A5 m c) b s h * dense (A0 m c) (A6 m c) (A7 m c) b s h := by
  show out0_3 (batchOf (A0 m c) b) (V1 m ρ c main_v5) (V1 m ρ c main_v7) (ix3 (0 : Fin 1) s (hi h)) = _
  rw [OutKV.out_hi]
  unfold eK kCol
  have e : (fun s' : Fin 2048 => kvRow (batchOf (A0 m c) b) (V1 m ρ c main_v5) (V1 m ρ c main_v7) s' (lo h))
      = fun s' : Fin 2048 => dense (A0 m c) (A4 m c) (A5 m c) b s' h := funext fun s' => kvRow_lo m ρ c b s' h
  rw [e, kvRow_hi]

/-! ### The result array, entry by entry -/

set_option maxHeartbeats 800000 in
theorem result_at (c : Dev nD) (b : Fin 8) (t : Fin 2048) (d : Fin 256) :
    (W3 (F := Ideal) m ρ c (Proc.devRef .tc main_v13) : S8x2048x256.Idx → EReal) (ix3 b t d)
      = result (A0 m c) (A1 m c) (A2 m c) (A3 m c) (A4 m c) (A5 m c) (A6 m c) (A7 m c) (A8 m c) (A9 m c) b t d := by
  rw [W3_v13]
  show out1_7 (rows256 (F := Ideal) (A0 m c) b (qOf t)) (rows2048 (F := Ideal) (A1 m c) b (qOf t)) (V1 m ρ c main_v1) (V1 m ρ c main_v8)
    (batchOfB (F := Ideal) (kvArr (F := Ideal) (A0 m c) (V1 m ρ c main_v5) (V1 m ρ c main_v7)) b) (V1 m ρ c main_v10) (V1 m ρ c main_v11)
    (ix3 (0 : Fin 1) (rOf t) d) = _
  rw [out1_eq, PayAft.pay1_apply]
  unfold PayAft.outRow result
  rw [v11_at]
  refine congrArg₂ (fun (u : Fin 128 → EReal) (w : Fin 128 → EReal) => lin u w _) (funext fun h => ?_) (funext fun h => v10_at m ρ c h d)
  unfold PayAft.yt gated
  have hq : PayAft.qrow (rows256 (F := Ideal) (A0 m c) b (qOf t)) (V1 m ρ c main_v1) (V1 m ρ c main_v8) (rOf t) h
      = dense (A0 m c) (A2 m c) (A3 m c) b t h := by
    unfold PayAft.qrow dense
    rw [v8_at]
    refine congrArg₂ (fun (u : Fin 256 → EReal) (w : Fin 256 → EReal) => lin u w _) (funext fun d' => rows256_at (A0 m c) b t d')
      (funext fun d' => v1_at m ρ c d' h)
  have hea : ∀ s : Fin 2048, PayAft.ea (rows2048 (F := Ideal) (A1 m c) b (qOf t)) (rOf t) s = esmPlain (abRow (A1 m c) b t) s := fun s => by
    unfold PayAft.ea abRow
    refine congrArg (fun a => esmPlain a s) (funext fun s' => rows2048_at (A1 m c) b t s')
  have hcl : PayAft.comb (rows2048 (F := Ideal) (A1 m c) b (qOf t)) (batchOfB (F := Ideal) (kvArr (F := Ideal) (A0 m c) (V1 m ρ c main_v5) (V1 m ρ c main_v7)) b) (rOf t) (lo h)
      = ∑ s : Fin 2048, esmPlain (abRow (A1 m c) b t) s * eK (A0 m c) (A4 m c) (A5 m c) b s h := by
    unfold PayAft.comb
    refine Finset.sum_congr rfl fun s _ => ?_
    rw [hea, batchOfB_at, ek_lo]
  have hch : PayAft.comb (rows2048 (F := Ideal) (A1 m c) b (qOf t)) (batchOfB (F := Ideal) (kvArr (F := Ideal) (A0 m c) (V1 m ρ c main_v5) (V1 m ρ c main_v7)) b) (rOf t) (hi h)
      = ∑ s : Fin 2048, esmPlain (abRow (A1 m c) b t) s * (eK (A0 m c) (A4 m c) (A5 m c) b s h * dense (A0 m c) (A6 m c) (A7 m c) b s h) := by
    unfold PayAft.comb
    refine Finset.sum_congr rfl fun s _ => ?_
    rw [hea, batchOfB_at, ek_hi]
  rw [hq, hcl, hch]

end Cert.KernelIdeal.KernelValue

end
-- ==== Proof.RefRead.lean ====
/-
  The reference program's stages, read at coordinates.  Q, K, V are dense rows of x; the gate is σ(Q); the positional
  weights are exp(softmax over the source positions of the positional bias), taken WITH the row maximum subtracted;
  the key weights are exp(softmax over time of K), also with the maximum subtracted; the result is
  (σ(Q) ⊙ (ea · (eK ⊙ V)) / (ea · eK)) · Wpᵀ + bp.  At a finite positional bias the subtracted maximum is finite and
  drops out of the softmax, which gives the form the other program computes.
-/
import proofs.«145227_j48455821034241_2_alg».proof.Proof.Gen.ReferenceIdeal.Read
import proofs.«145227_j48455821034241_2_alg».proof.Proof.Spec
import Idealize.ShloMosaic.Lib.IdealHost
import Idealize.ShloMosaic.Lib.ValueIdx
import Idealize.ShloMosaic.PureOps.Reduce

set_option maxRecDepth 16384

noncomputable section

namespace Cert.ReferenceIdeal.RefRead

open Cert.ReferenceIdeal Cert.ReferenceIdeal.Gen Cert.ReferenceIdeal.Read Cert.Spec
open Idealize.ShloMosaic Idealize.ShloMosaic.TcCoe Idealize.SL.Sem Idealize.ShloMosaic.ValueIdx
open Idealize.ShloMosaic.SoftmaxShift (Fin')

variable (x0 : T3 8 2048 256) (x1 : T3 8 2048 2048) (x2 : T2 128 256) (x3 : T1 128) (x4 : T2 128 256) (x5 : T1 128)
  (x6 : T2 128 256) (x7 : T1 128) (x8 : T2 256 128) (x9 : T1 256)

/-- The two reductions' shape facts with the positive rank added. -/
theorem red_ab : S8x2048x2048.Reduces [2] S8x2048 :=
  ⟨reducesTo_S8x2048x2048_S8x2048_d2.1, Nat.zero_lt_two, reducesTo_S8x2048x2048_S8x2048_d2.2⟩
theorem red_k : S8x2048x128.Reduces [1] S8x128 :=
  ⟨reducesTo_S8x2048x128_S8x128_d1.1, Nat.zero_lt_two, reducesTo_S8x2048x128_S8x128_d1.2⟩

/-! ### The three dense layers -/

theorem v3_closed (b : Fin 8) (t : Fin 2048) (h : Fin 128) :
    val_main_v3 (F := Ideal) x0 x2 x3 (ix3 b t h) = dense x0 x2 x3 b t h := by
  rw [val_main_v3_apply, val_main_v0_apply, val_main_v2_apply, val_main_v1_apply]
  unfold dense lin
  refine congrArg₂ (fun u v : EReal => u + v) (Finset.sum_congr rfl fun k _ => ?_) ?_
  · exact congrArg₂ (fun u v : EReal => u * v)
      (congrArg x0 (funext fun a => Fin.ext (by match a with | ⟨0, _⟩ => rfl | ⟨1, _⟩ => rfl | ⟨2, _⟩ => rfl)))
      (congrArg x2 (funext fun a => Fin.ext (by match a with | ⟨0, _⟩ => rfl | ⟨1, _⟩ => rfl)))
  · exact congrArg x3 (funext fun a => Fin.ext (by match a with | ⟨0, _⟩ => rfl))

theorem v7_closed (b : Fin 8) (t : Fin 2048) (h : Fin 128) :
    val_main_v7 (F := Ideal) x0 x4 x5 (ix3 b t h) = dense x0 x4 x5 b t h := by
  rw [val_main_v7_apply, val_main_v4_apply, val_main_v6_apply, val_main_v5_apply]
  unfold dense lin
  refine congrArg₂ (fun u v : EReal => u + v) (Finset.sum_congr rfl fun k _ => ?_) ?_
  · exact congrArg₂ (fun u v : EReal => u * v)
      (congrArg x0 (funext fun a => Fin.ext (by match a with | ⟨0, _⟩ => rfl | ⟨1, _⟩ => rfl | ⟨2, _⟩ => rfl)))
      (congrArg x4 (funext fun a => Fin.ext (by match a with | ⟨0, _⟩ => rfl | ⟨1, _⟩ => rfl)))
  · exact congrArg x5 (funext fun a => Fin.ext (by match a with | ⟨0, _⟩ => rfl))

theorem v11_closed (b : Fin 8) (t : Fin 2048) (h : Fin 128) :
    val_main_v11 (F := Ideal) x0 x6 x7 (ix3 b t h) = dense x0 x6 x7 b t h := by
  rw [val_main_v11_apply, val_main_v8_apply, val_main_v10_apply, val_main_v9_apply]
  unfold dense lin
  refine congrArg₂ (fun u v : EReal => u + v) (Finset.sum_congr rfl fun k _ => ?_) ?_
  · exact congrArg₂ (fun u v : EReal => u * v)
      (congrArg x0 (funext fun a => Fin.ext (by match a with | ⟨0, _⟩ => rfl | ⟨1, _⟩ => rfl | ⟨2, _⟩ => rfl)))
      (congrArg x6 (funext fun a => Fin.ext (by match a with | ⟨0, _⟩ => rfl | ⟨1, _⟩ => rfl)))
  · exact congrArg x7 (funext fun a => Fin.ext (by match a with | ⟨0, _⟩ => rfl))

/-! ### The gate -/

theorem v17_closed (b : Fin 8) (t : Fin 2048) (h : Fin 128) :
    val_main_v17 (F := Ideal) x0 x2 x3 (ix3 b t h) = Ideal.logistic (dense x0 x2 x3 b t h) := by
  rw [val_main_v17_apply, val_main_v16_apply, val_main_cst_0_apply, val_main_v15_apply, val_main_v14_apply,
    val_main_cst_apply, val_main_v13_apply, val_main_v12_apply, v3_closed]
  show Ideal.div (Ideal.ofBits .f32 0x3F800000#32) (Ideal.ofBits .f32 0x3F800000#32 + Ideal.exp (-(dense x0 x2 x3 b t h))) = _
  rw [Ideal.ofBits_one_f32]
  rfl

/-! ### exp(softmax over the source positions of the positional bias) -/

theorem v20_closed (b : Fin 8) (t : Fin 2048) :
    val_main_v20 (F := Ideal) x1 (ix2 b t) = max ninf (fmax (abRow x1 b t)) := by
  rw [val_main_v20_apply, val_main_v19_apply, val_main_cst_2_apply]
  refine congrArg (max ninf) ?_
  unfold val_main_v18
  refine (Host.reduce_eq_fold_single (α := EReal) (max : EReal → EReal → EReal) x1 (val_main_cst_1 (F := Ideal))
    reducesTo_S8x2048x2048_S8x2048_d2 red_ab h_S_ (ix2 b t)).trans ?_
  have e : (x1 ∘ red_ab.lift (ix2 b t)) = abRow x1 b t :=
    funext fun s => congrArg x1 (funext fun a => Fin.ext (by match a with | ⟨0, _⟩ => rfl | ⟨1, _⟩ => rfl | ⟨2, _⟩ => rfl))
  rw [e]
  rfl

theorem v24_closed (b : Fin 8) (t s : Fin 2048) :
    val_main_v24 (F := Ideal) x1 (ix3 b t s) = Ideal.exp (abRow x1 b t s - max ninf (fmax (abRow x1 b t))) := by
  rw [val_main_v24_apply, val_main_v23_apply, val_main_v22_apply, val_main_v21_apply]
  have e : idx_main_v21 (idx_main_v22 (ix3 b t s)) = ix2 b t :=
    funext fun a => Fin.ext (by match a with | ⟨0, _⟩ => rfl | ⟨1, _⟩ => rfl)
  rw [e, v20_closed]
  rfl

theorem v40_closed (b : Fin 8) (t s : Fin 2048) :
    val_main_v40 (F := Ideal) x1 (ix3 b t s)
      = Ideal.exp (Ideal.div (Ideal.exp (abRow x1 b t s - max ninf (fmax (abRow x1 b t))))
          (zero32 + ∑ s' : Fin 2048, Ideal.exp (abRow x1 b t s' - max ninf (fmax (abRow x1 b t))))) := by
  rw [val_main_v40_apply, val_main_v28_apply, val_main_v27_apply, val_main_v26_apply, val_main_v25_apply, v24_closed]
  have e : idx_main_v26 (idx_main_v27 (ix3 b t s)) = ix2 b t :=
    funext fun a => Fin.ext (by match a with | ⟨0, _⟩ => rfl | ⟨1, _⟩ => rfl)
  rw [e]
  have e2 : ∀ k : Fin 2048, idx_main_v25 (ix2 b t) k = ix3 b t k := fun k =>
    funext fun a => Fin.ext (by match a with | ⟨0, _⟩ => rfl | ⟨1, _⟩ => rfl | ⟨2, _⟩ => rfl)
  simp only [e2, v24_closed]
  rfl

/-- At a finite positional bias: the plain form. -/
theorem v40_plain (hfin : ∀ i, Fin' (x1 i)) (b : Fin 8) (t s : Fin 2048) :
    val_main_v40 (F := Ideal) x1 (ix3 b t s) = esmPlain (abRow x1 b t) s :=
  (v40_closed x1 b t s).trans (esm_ref_eq_plain (by decide) (abRow x1 b t) (fun k => hfin _) s)

/-! ### exp(softmax over time of the keys) -/

theorem v31_closed (b : Fin 8) (h : Fin 128) :
    val_main_v31 (F := Ideal) x0 x4 x5 (ix2 b h) = max ninf (fmax (kCol x0 x4 x5 b h)) := by
  rw [val_main_v31_apply, val_main_v30_apply, val_main_cst_5_apply]
  refine congrArg (max ninf) ?_
  unfold val_main_v29
  refine (Host.reduce_eq_fold_single (α := EReal) (max : EReal → EReal → EReal) (val_main_v7 (F := Ideal) x0 x4 x5)
    (val_main_cst_4 (F := Ideal)) reducesTo_S8x2048x128_S8x128_d1 red_k h_S_ (ix2 b h)).trans ?_
  have e : (val_main_v7 (F := Ideal) x0 x4 x5 ∘ red_k.lift (ix2 b h)) = kCol x0 x4 x5 b h :=
    funext fun s => (congrArg (val_main_v7 (F := Ideal) x0 x4 x5)
      (funext fun a => Fin.ext (by match a with | ⟨0, _⟩ => rfl | ⟨1, _⟩ => rfl | ⟨2, _⟩ => rfl))).trans (v7_closed x0 x4 x5 b s h)
  rw [e]
  rfl

theorem v35_closed (b : Fin 8) (s : Fin 2048) (h : Fin 128) :
    val_main_v35 (F := Ideal) x0 x4 x5 (ix3 b s h)
      = Ideal.exp (kCol x0 x4 x5 b h s - max ninf (fmax (kCol x0 x4 x5 b h))) := by
  rw [val_main_v35_apply, val_main_v34_apply, val_main_v33_apply, val_main_v32_apply, v7_closed]
  have e : idx_main_v32 (idx_main_v33 (ix3 b s h)) = ix2 b h :=
    funext fun a => Fin.ext (by match a with | ⟨0, _⟩ => rfl | ⟨1, _⟩ => rfl)
  rw [e, v31_closed]
  rfl

theorem v41_closed (b : Fin 8) (s : Fin 2048) (h : Fin 128) :
    val_main_v41 (F := Ideal) x0 x4 x5 (ix3 b s h) = eK x0 x4 x5 b s h := by
  rw [val_main_v41_apply, val_main_v39_apply, val_main_v38_apply, val_main_v37_apply, val_main_v36_apply, v35_closed]
  have e : idx_main_v37 (idx_main_v38 (ix3 b s h)) = ix2 b h :=
    funext fun a => Fin.ext (by match a with | ⟨0, _⟩ => rfl | ⟨1, _⟩ => rfl)
  rw [e]
  have e2 : ∀ k : Fin 2048, idx_main_v36 (ix2 b h) k = ix3 b k h := fun k =>
    funext fun a => Fin.ext (by match a with | ⟨0, _⟩ => rfl | ⟨1, _⟩ => rfl | ⟨2, _⟩ => rfl)
  simp only [e2, v35_closed]
  exact esm_ref_spelling (kCol x0 x4 x5 b h) s

theorem v42_closed (b : Fin 8) (s : Fin 2048) (h : Fin 128) :
    val_main_v42 (F := Ideal) x0 x4 x5 x6 x7 (ix3 b s h) = eK x0 x4 x5 b s h * dense x0 x6 x7 b s h := by
  rw [val_main_v42_apply, v41_closed, v11_closed]
  rfl

/-! ### The result -/

theorem v46_closed (b : Fin 8) (t : Fin 2048) (h : Fin 128) :
    val_main_v46 (F := Ideal) x0 x1 x2 x3 x4 x5 x6 x7 (ix3 b t h)
      = gated x0 x2 x3 x4 x5 x6 x7 (fun s => val_main_v40 (F := Ideal) x1 (ix3 b t s)) b t h := by
  rw [val_main_v46_apply, val_main_v45_apply, val_main_v43_apply, val_main_v44_apply, v17_closed]
  have el : ∀ k : Fin 2048, lidx_main_v43 (ix3 b t h) k = ix3 b t k := fun k =>
    funext fun a => Fin.ext (by match a with | ⟨0, _⟩ => rfl | ⟨1, _⟩ => rfl | ⟨2, _⟩ => rfl)
  have er : ∀ k : Fin 2048, ridx_main_v43 (ix3 b t h) k = ix3 b k h := fun k =>
    funext fun a => Fin.ext (by match a with | ⟨0, _⟩ => rfl | ⟨1, _⟩ => rfl | ⟨2, _⟩ => rfl)
  have el' : ∀ k : Fin 2048, lidx_main_v44 (ix3 b t h) k = ix3 b t k := fun k =>
    funext fun a => Fin.ext (by match a with | ⟨0, _⟩ => rfl | ⟨1, _⟩ => rfl | ⟨2, _⟩ => rfl)
  have er' : ∀ k : Fin 2048, ridx_main_v44 (ix3 b t h) k = ix3 b k h := fun k =>
    funext fun a => Fin.ext (by match a with | ⟨0, _⟩ => rfl | ⟨1, _⟩ => rfl | ⟨2, _⟩ => rfl)
  simp only [el, er, el', er', v41_closed, v42_closed]
  rfl

/-- The reference's result at (b, t, d), at a finite positional bias. -/
theorem v50_closed (hfin : ∀ i, Fin' (x1 i)) (b : Fin 8) (t : Fin 2048) (d : Fin 256) :
    val_main_v50 (F := Ideal) x0 x1 x2 x3 x4 x5 x6 x7 x8 x9 (ix3 b t d) = result x0 x1 x2 x3 x4 x5 x6 x7 x8 x9 b t d := by
  rw [val_main_v50_apply, val_main_v47_apply, val_main_v49_apply, val_main_v48_apply]
  have el : ∀ k : Fin 128, lidx_main_v47 (ix3 b t d) k = ix3 b t k := fun k =>
    funext fun a => Fin.ext (by match a with | ⟨0, _⟩ => rfl | ⟨1, _⟩ => rfl | ⟨2, _⟩ => rfl)
  have er : ∀ k : Fin 128, ridx_main_v47 (ix3 b t d) k = ix2 d k := fun k =>
    funext fun a => Fin.ext (by match a with | ⟨0, _⟩ => rfl | ⟨1, _⟩ => rfl)
  have e9 : idx_main_v48 (idx_main_v49 (ix3 b t d)) = ix1 d :=
    funext fun a => Fin.ext (by match a with | ⟨0, _⟩ => rfl)
  have ea : (fun s => val_main_v40 (F := Ideal) x1 (ix3 b t s)) = esmPlain (abRow x1 b t) :=
    funext fun s => v40_plain x1 hfin b t s
  simp only [el, er, e9, v46_closed, ea]
  rfl

end Cert.ReferenceIdeal.RefRead

end
-- ==== Proof.Finite.lean ====
/-
  What the precondition gives.  "Every float input is finite" is printed as a conjunction, input by input, of
  all(|x| < +∞).  The one law that joins the two programs (softmax does not see a finite shift) is about the
  positional bias, so that conjunct is read here: every entry of the positional bias is neither infinity.
-/
import proofs.«145227_j48455821034241_2_alg».proof.Pre_finite_inputs
import proofs.«145227_j48455821034241_2_alg».proof.Proof.LibSoftmaxShift
import Idealize.ShloMosaic.Lib.ReduceAll
import Idealize.ShloMosaic.Lib.Affine
import Idealize.ShloMosaic.Lib.ValueIdx
import Idealize.ShloMosaic.PureOps.Ideal.Laws

set_option maxRecDepth 16384

noncomputable section

namespace Cert.Pre_finite_inputs.Decode

open Cert.Pre_finite_inputs Cert.Pre_finite_inputs.Facts
open Idealize.ShloMosaic Idealize.ShloMosaic.SoftmaxShift

instance : Subsingleton S_.Idx := ⟨fun a b => funext fun d => d.elim0⟩

/-- |x| < +∞ on the extended reals says x is neither infinity. -/
theorem finite_of_abs_lt_top (x : EReal) (h : max x (-x) < ⊤) : Fin' x := by
  induction x using EReal.rec with
  | bot => simp at h
  | top => simp at h
  | coe r => exact Fin'.coe r

variable [Facts]

/-- From the precondition: every entry of the second argument (the positional bias) is finite. -/
theorem arg1_finite (a0 : FVec Ideal S8x2048x256 .f32) (a1 : FVec Ideal S8x2048x2048 .f32) (a2 : FVec Ideal S128x256 .f32)
    (a3 : FVec Ideal S128 .f32) (a4 : FVec Ideal S128x256 .f32) (a5 : FVec Ideal S128 .f32) (a6 : FVec Ideal S128x256 .f32)
    (a7 : FVec Ideal S128 .f32) (a8 : FVec Ideal S256x128 .f32) (a9 : FVec Ideal S256 .f32)
    (h : fn (F := Ideal) a0 a1 a2 a3 a4 a5 a6 a7 a8 a9 = fun _ => 1#1) (i : S8x2048x2048.Idx) : Fin' (a1 i) := by
  have h0 := congrFun h ValueIdx.ix0
  dsimp only [fn, fn_part1, fn_part2] at h0
  have h1 := (IntOp.andi_eq_one.mp h0).1
  have h2 := (IntOp.andi_eq_one.mp h1).1
  have h3 := (IntOp.andi_eq_one.mp h2).1
  have h4 := (IntOp.andi_eq_one.mp h3).1
  have h5 := (IntOp.andi_eq_one.mp h4).1
  have h6 := (IntOp.andi_eq_one.mp h5).1
  have h7 := (IntOp.andi_eq_one.mp h6).1
  have h8 := (IntOp.andi_eq_one.mp h7).1
  have h9 := (IntOp.andi_eq_one.mp h8).2
  have hx := Host.reduce_andi_all _ _ reducesTo_S8x2048x2048_S_d0_1_2 h_S_ ValueIdx.ix0 h9 i
  have hc : Ideal.cmp .olt (max (a1 i) (-(a1 i))) (Ideal.ofBits .f32 0x7F800000#32) = 1#1 := hx
  refine finite_of_abs_lt_top _ ?_
  have htop : Ideal.ofBits .f32 0x7F800000#32 = ⊤ := by simp [Ideal.ofBits, Ideal.ieee]
  rw [htop] at hc
  unfold Ideal.cmp at hc
  by_contra hn
  simp [hn] at hc

end Cert.Pre_finite_inputs.Decode

end
-- ==== Proof.lean ====
/-
  Exp-weighted attention with a sigmoid gate: the two-region kernel program against its reference, on the extended reals.

  Both programs compute, for batch b, position t and output channel d,
      out[b,t,d] = Σ_h ( σ(Q[b,t,h]) · (Σ_s ea[b,t,s] · eK[b,s,h] · V[b,s,h]) / (Σ_s ea[b,t,s] · eK[b,s,h]) ) · Wp[d,h] + bp[d],
  with Q, K, V dense rows of x, eK = exp(softmax over time of K) and ea = exp(softmax over source positions of the
  positional bias).  The kernel program computes K and V in one product against the concatenated weights, writes
  [eK | eK·V] in a first region, and in a second region forms ea, takes ONE product of ea against that 256-wide array,
  splits it into denominator and numerator, gates, and projects.  A change of float format is the identity on the
  extended reals, a blocked product is the whole product, and a sum may be taken in any order, so none of this
  regrouping matters.  ONE step is a law of its own: the kernel takes the softmax of the positional bias without
  subtracting the row maximum, the reference subtracts it.  On finite entries the maximum is a finite real m and
  exp(a − m) / Σ exp(a' − m) = exp(a) / Σ exp(a'), so the two agree; the precondition (every input finite) is used
  exactly there, for the positional bias.

  The frames of the two kernel programs are the generated frame certificates; the reference's frame is its generated
  run with the result dropped; the ideal pass rewrote nothing, so nothing is owed for the idealization.
-/
import proofs.«145227_j48455821034241_2_alg».proof.Defs
import proofs.«145227_j48455821034241_2_alg».proof.Proof.Gen.Kernel
import proofs.«145227_j48455821034241_2_alg».proof.Proof.Gen.Kernel.Skeleton
import proofs.«145227_j48455821034241_2_alg».proof.Proof.Gen.Kernel.Launch
import proofs.«145227_j48455821034241_2_alg».proof.Proof.Gen.Kernel.Points
import proofs.«145227_j48455821034241_2_alg».proof.Proof.Gen.Kernel.Frame
import proofs.«145227_j48455821034241_2_alg».proof.Proof.Gen.KernelIdeal
import proofs.«145227_j48455821034241_2_alg».proof.Proof.Gen.KernelIdeal.Skeleton
import proofs.«145227_j48455821034241_2_alg».proof.Proof.Gen.KernelIdeal.Launch
import proofs.«145227_j48455821034241_2_alg».proof.Proof.Gen.KernelIdeal.Points
import proofs.«145227_j48455821034241_2_alg».proof.Proof.Gen.KernelIdeal.Frame
import proofs.«145227_j48455821034241_2_alg».proof.Proof.Gen.ReferenceIdeal
import proofs.«145227_j48455821034241_2_alg».proof.Proof.Gen.ReferenceIdeal.Run
import proofs.«145227_j48455821034241_2_alg».proof.Proof.Gen.ReferenceIdeal.Read
import proofs.«145227_j48455821034241_2_alg».proof.Proof.Gen.Pre_finite_inputs
import proofs.«145227_j48455821034241_2_alg».proof.Proof.KernelRun
import proofs.«145227_j48455821034241_2_alg».proof.Proof.KernelValue
import proofs.«145227_j48455821034241_2_alg».proof.Proof.RefRead
import proofs.«145227_j48455821034241_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs, and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the ten arguments, finite, the two idealized programs end with the same result array:
    entry (b, t, d) of either is the gated ratio through the last dense layer. -/
theorem algebraic : Cert.algebraic_KernelIdeal_ReferenceIdeal := by
  intro m ρ m' ρ' hpre hagree
  refine ⟨fun c => Cert.KernelIdeal.Gen.W3 m ρ c (Proc.devRef .tc Cert.KernelIdeal.main_v13),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9⟩ := hagree c
  have hfin : ∀ i, SoftmaxShift.Fin' (m ((c.tc : Thread Cert.KernelIdeal.nD Cert.KernelIdeal.τ).loc Cert.KernelIdeal.main_arg1) i) :=
    fun i => Cert.Pre_finite_inputs.Decode.arg1_finite _ _ _ _ _ _ _ _ _ _ (hpre c) i
  rw [Cert.ReferenceIdeal.Read.val_main_v50_eq, g0, g1, g2, g3, g4, g5, g6, g7, g8, g9]
  funext i
  obtain ⟨b, t, d, rfl⟩ : ∃ (b : Fin 8) (t : Fin 2048) (d : Fin 256), i = ValueIdx.ix3 b t d :=
    ⟨i 0, i 1, i 2, ValueIdx.eq_ix3 i⟩
  exact (Cert.ReferenceIdeal.RefRead.v50_closed _ _ _ _ _ _ _ _ _ _ hfin b t d).trans
    (Cert.KernelIdeal.KernelValue.result_at m ρ c b t d).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
